-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v89)) (v1 : (c : Dev Cert.KernelIdeal.nD) → Buf (Elt Ideal) ((c.tc : Thread Cert.KernelIdeal.nD Cert.KernelIdeal.τ).loc Cert.KernelIdeal.main_v59_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_v59_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x800000 : Shape := ⟨2, ![2, 800000]⟩
abbrev S100000 : Shape := ⟨1, ![100000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S64x2 .f32) (main_arg10 : FVec F S2 .f32) (main_v33 : IVec S_ 1) : IVec S_ 1 :=
  let main_v34 : FVec F S64x2 .f32 := Host.absf main_arg9
  let main_cst_12 : FVec F S_ .f32 := constant S_ .f32 0x7F800000#32
  let main_v35 : FVec F S64x2 .f32 := broadcastInDim S64x2 ![] bcast_S_S64x2 main_cst_12
  let main_v36 : IVec S64x2 1 := cmpf .olt main_v34 main_v35
  let main_c_13 : IVec S_ 1 := constantI S_ 1 1#1
  let main_v37 : IVec S_ 1 := (fun x v => Host.reduce IntOp.andi x v reducesTo_S64x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x2 .f32) (main_arg10 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : IVec S2x800000 32) (main_arg2 : IVec S100000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x2 .f32) (main_arg10 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S2x800000 : Shape := ⟨2, ![2, 800000]⟩
abbrev S100000 : Shape := ⟨1, ![100000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S1x64 : Shape := ⟨2, ![1, 64]⟩
abbrev S5000x64 : Shape := ⟨2, ![5000, 64]⟩
abbrev S900000x64 : Shape := ⟨2, ![900000, 64]⟩
abbrev S100000x1 : Shape := ⟨2, ![100000, 1]⟩
abbrev S64x1 : Shape := ⟨2, ![64, 1]⟩
abbrev S1x2 : Shape := ⟨2, ![1, 2]⟩

abbrev nBuf : Space → Nat
  | .hbm => 122
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S2x800000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x2, .f32⟩
  | .hbm, ⟨10, _⟩ => ⟨S2, .f32⟩
  | .hbm, ⟨11, _⟩ => ⟨S100000, .i32⟩
  | .hbm, ⟨12, _⟩ => ⟨S1x800000, .i32⟩
  | .hbm, ⟨13, _⟩ => ⟨S800000, .i32⟩
  | .hbm, ⟨14, _⟩ => ⟨S900000, .i32⟩
  | .hbm, ⟨15, _⟩ => ⟨S1x800000, .i32⟩
  | .hbm, ⟨16, _⟩ => ⟨S800000, .i32⟩
  | .hbm, ⟨17, _⟩ => ⟨S900000, .i32⟩
  | .hbm, ⟨18, _⟩ => ⟨S_, .f32⟩
  | .hbm, ⟨19, _⟩ => ⟨S900000, .f32⟩
  | .hbm, ⟨20, _⟩ => ⟨S_, .f32⟩
  | .hbm, ⟨21, _⟩ => ⟨S100000, .f32⟩
  | .hbm, ⟨22, _⟩ => ⟨S900000x1, .i32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S900000, .i32⟩
  | .hbm, ⟨27, _⟩ => ⟨S900000, .i1⟩
  | .hbm, ⟨28, _⟩ => ⟨S_, .i32⟩
  | .hbm, ⟨29, _⟩ => ⟨S900000, .i32⟩
  | .hbm, ⟨30, _⟩ => ⟨S900000, .i32⟩
  | .hbm, ⟨31, _⟩ => ⟨S900000, .i32⟩
  | .hbm, ⟨32, _⟩ => ⟨S900000x1, .i32⟩
  | .hbm, ⟨33, _⟩ => ⟨S900000, .f32⟩
  | .hbm, ⟨34, _⟩ => ⟨S_, .i32⟩
  | .hbm, ⟨35, _⟩ => ⟨S900000, .i32⟩
  | .hbm, ⟨36, _⟩ => ⟨S900000, .i1⟩
  | .hbm, ⟨37, _⟩ => ⟨S_, .i32⟩
  | .hbm, ⟨38, _⟩ => ⟨S900000, .i32⟩
  | .hbm, ⟨39, _⟩ => ⟨S900000, .i32⟩
  | .hbm, ⟨40, _⟩ => ⟨S900000, .i32⟩
  | .hbm, ⟨41, _⟩ => ⟨S900000x1, .i32⟩
  | .hbm, ⟨42, _⟩ => ⟨S900000, .f32⟩
  | .hbm, ⟨43, _⟩ => ⟨S900000, .f32⟩
  | .hbm, ⟨44, _⟩ => ⟨S_, .f32⟩
  | .hbm, ⟨45, _⟩ => ⟨S64, .f32⟩
  | .hbm, ⟨46, _⟩ => ⟨S1x64, .f32⟩
  | .hbm, ⟨47, _⟩ => ⟨S100000x64, .f32⟩
  | .hbm, ⟨48, _⟩ => ⟨S_, .i32⟩
  | .hbm, ⟨49, _⟩ => ⟨S900000, .i32⟩
  | .hbm, ⟨50, _⟩ => ⟨S900000, .i1⟩
  | .hbm, ⟨51, _⟩ => ⟨S_, .i32⟩
  | .hbm, ⟨52, _⟩ => ⟨S900000, .i32⟩
  | .hbm, ⟨53, _⟩ => ⟨S900000, .i32⟩
  | .hbm, ⟨54, _⟩ => ⟨S900000, .i32⟩
  | .hbm, ⟨55, _⟩ => ⟨S900000x1, .i32⟩
  | .hbm, ⟨56, _⟩ => ⟨S900000x64, .f32⟩
  | .hbm, ⟨57, _⟩ => ⟨S900000x1, .f32⟩
  | .hbm, ⟨58, _⟩ => ⟨S900000x64, .f32⟩
  | .hbm, ⟨59, _⟩ => ⟨S900000x64, .f32⟩
  | .hbm, ⟨60, _⟩ => ⟨S_, .f32⟩
  | .hbm, ⟨61, _⟩ => ⟨S100000x64, .f32⟩
  | .hbm, ⟨62, _⟩ => ⟨S900000x1, .i32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S_, .i32⟩
  | .hbm, ⟨67, _⟩ => ⟨S900000, .i32⟩
  | .hbm, ⟨68, _⟩ => ⟨S900000, .i1⟩
  | .hbm, ⟨69, _⟩ => ⟨S_, .i32⟩
  | .hbm, ⟨70, _⟩ => ⟨S900000, .i32⟩
  | .hbm, ⟨71, _⟩ => ⟨S900000, .i32⟩
  | .hbm, ⟨72, _⟩ => ⟨S900000, .i32⟩
  | .hbm, ⟨73, _⟩ => ⟨S900000x1, .i32⟩
  | .hbm, ⟨74, _⟩ => ⟨S900000x64, .f32⟩
  | .hbm, ⟨75, _⟩ => ⟨S900000x1, .f32⟩
  | .hbm, ⟨76, _⟩ => ⟨S900000x64, .f32⟩
  | .hbm, ⟨77, _⟩ => ⟨S900000x64, .f32⟩
  | .hbm, ⟨78, _⟩ => ⟨S_, .f32⟩
  | .hbm, ⟨79, _⟩ => ⟨S100000x64, .f32⟩
  | .hbm, ⟨80, _⟩ => ⟨S900000x1, .i32⟩
  | .hbm, ⟨81, _⟩ => ⟨S100000x64, .f32⟩
  | .hbm, ⟨82, _⟩ => ⟨S1x64, .f32⟩
  | .hbm, ⟨83, _⟩ => ⟨S100000x64, .f32⟩
  | .hbm, ⟨84, _⟩ => ⟨S100000x64, .f32⟩
  | .hbm, ⟨85, _⟩ => ⟨S_, .i32⟩
  | .hbm, ⟨86, _⟩ => ⟨S900000, .i32⟩
  | .hbm, ⟨87, _⟩ => ⟨S900000, .i1⟩
  | .hbm, ⟨88, _⟩ => ⟨S_, .i32⟩
  | .hbm, ⟨89, _⟩ => ⟨S900000, .i32⟩
  | .hbm, ⟨90, _⟩ => ⟨S900000, .i32⟩
  | .hbm, ⟨91, _⟩ => ⟨S900000, .i32⟩
  | .hbm, ⟨92, _⟩ => ⟨S900000x1, .i32⟩
  | .hbm, ⟨93, _⟩ => ⟨S900000x64, .f32⟩
  | .hbm, ⟨94, _⟩ => ⟨S900000x1, .f32⟩
  | .hbm, ⟨95, _⟩ => ⟨S900000x64, .f32⟩
  | .hbm, ⟨96, _⟩ => ⟨S900000x64, .f32⟩
  | .hbm, ⟨97, _⟩ => ⟨S_, .f32⟩
  | .hbm, ⟨98, _⟩ => ⟨S100000x64, .f32⟩
  | .hbm, ⟨99, _⟩ => ⟨S900000x1, .i32⟩
  | .hbm, ⟨100, _⟩ => ⟨S100000x64, .f32⟩
  | .hbm, ⟨101, _⟩ => ⟨S1x64, .f32⟩
  | .hbm, ⟨102, _⟩ => ⟨S100000x64, .f32⟩
  | .hbm, ⟨103, _⟩ => ⟨S100000x64, .f32⟩
  | .hbm, ⟨104, _⟩ => ⟨S_, .f32⟩
  | .hbm, ⟨105, _⟩ => ⟨S100000, .f32⟩
  | .hbm, ⟨106, _⟩ => ⟨S_, .f32⟩
  | .hbm, ⟨107, _⟩ => ⟨S64, .f32⟩
  | .hbm, ⟨108, _⟩ => ⟨S100000x1, .i32⟩
  | .hbm, ⟨109, _⟩ => ⟨S64, .f32⟩
  | .hbm, ⟨110, _⟩ => ⟨S_, .f32⟩
  | .hbm, ⟨111, _⟩ => ⟨S64x64, .f32⟩
  | .hbm, ⟨112, _⟩ => ⟨S100000x1, .i32⟩
  | .hbm, ⟨113, _⟩ => ⟨S64x64, .f32⟩
  | .hbm, ⟨114, _⟩ => ⟨S_, .f32⟩
  | .hbm, ⟨115, _⟩ => ⟨S64, .f32⟩
  | .hbm, ⟨116, _⟩ => ⟨S64, .f32⟩
  | .hbm, ⟨117, _⟩ => ⟨S64x1, .f32⟩
  | .hbm, ⟨118, _⟩ => ⟨S64x64, .f32⟩
  | .hbm, ⟨119, _⟩ => ⟨S64x64, .f32⟩
  | .hbm, ⟨120, _⟩ => ⟨S1x2, .f32⟩
  | .hbm, ⟨121, _⟩ => ⟨S64x2, .f32⟩
  | .local _ .vmem, ⟨0, _⟩ => ⟨S5000x64, .f32⟩
  | .local _ .vmem, ⟨1, _⟩ => ⟨S5000x64, .f32⟩
  | .local _ .vmem, ⟨2, _⟩ => ⟨S1x64, .f32⟩
  | .local _ .vmem, ⟨3, _⟩ => ⟨S64x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S1x64, .f32⟩
  | .local _ .vmem, ⟨9, _⟩ => ⟨S64x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S1x64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x64, .f32⟩
  | .local _ .vmem, ⟨21, _⟩ => ⟨S64x2, .f32⟩
  | .local _ .vmem, ⟨22, _⟩ => ⟨S1x2, .f32⟩
  | .local _ .vmem, ⟨23, _⟩ => ⟨S64x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_8 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59_0 : Ref sig .tc := ⟨.hbm, 83, rfl⟩
abbrev main_v59_1 : Ref sig .tc := ⟨.hbm, 84, rfl⟩
abbrev main_c_11 : Ref sig .tc := ⟨.hbm, 85, rfl⟩
abbrev main_v60 : Ref sig .tc := ⟨.hbm, 86, rfl⟩
abbrev main_v61 : Ref sig .tc := ⟨.hbm, 87, rfl⟩
abbrev main_c_12 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_13 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_14 : Ref sig .tc := ⟨.hbm, 104, rfl⟩
abbrev main_v76 : Ref sig .tc := ⟨.hbm, 105, rfl⟩
abbrev main_cst_15 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_16 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_17 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc2_sem4_0 : DmaSem sig := 18
abbrev cc2_sem4_1 : DmaSem sig := 19
abbrev cc3_sem0_0 : DmaSem sig := 20
abbrev cc3_sem1_0 : DmaSem sig := 21
abbrev cc3_sem2_0 : DmaSem sig := 22
abbrev cc3_sem3_0 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S_S64 : S_.BroadcastsInDim S64 (![] : Fin 0 → Fin S64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S900000x1_S900000x64_0_1 : S900000x1.BroadcastsInDim S900000x64 (![0, 1] : Fin 2 → Fin S900000x64.rank)
  bcast_S_S100000x64 : S_.BroadcastsInDim S100000x64 (![] : Fin 0 → Fin S100000x64.rank)
  shapeCasts_S5000x64_S5000x64 : S5000x64.ShapeCasts S5000x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S100000_S100000x1_0 : S100000.BroadcastsInDim S100000x1 (![0] : Fin 1 → Fin S100000x1.rank)
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  shapeCasts_S2_S1x2 : S2.ShapeCasts S1x2
  shapeCasts_S64x64_S64x64 : S64x64.ShapeCasts S64x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S64x2 : S1x2.Broadcasts S64x2
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S5000x64_S64x64_S5000x64_1_0_0_1_n_n_wf : DotDims.WF S5000x64 S64x64 S5000x64 [1] [0] [0] [1] [] []
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1
  scatter_S64_S100000x1_S100000_n_0_0_1_wf : ScatterDims.WF S64 S100000x1 S100000 [] [0] [0] 1
  scatter_S64x64_S100000x1_S100000x64_1_0_0_1_wf : ScatterDims.WF S64x64 S100000x1 S100000x64 [1] [0] [0] 1
  dot_S64x64_S64x2_S64x2_1_0_0_1_n_n_wf : DotDims.WF S64x64 S64x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x64.size a ≤ S64x64.size a
  hwx3_0 : ∀ i : grid3.Coords, EltTy.bits .f32 = 32 ∨ (Rect.block (s := S64x64) S64x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x2.size a ≤ S64x2.size a
  hwx3_1 : ∀ i : grid3.Coords, EltTy.bits .f32 = 32 ∨ (Rect.block (s := S64x2) S64x2.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2.size a ≤ S1x2.size a
  hwx3_2 : ∀ i : grid3.Coords, EltTy.bits .f32 = 32 ∨ (Rect.block (s := S1x2) S1x2.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x2.size a ≤ S64x2.size a
  hwx3_3 : ∀ i : grid3.Coords, EltTy.bits .f32 = 32 ∨ (Rect.block (s := S64x2) S64x2.size (cc3_transform_3 i) (hinb3_3 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v42) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59_0) S5000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v59_1) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v87) S64x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S64x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v88) S1x2.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v89) S64x2.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x800000 : Shape := ⟨2, ![2, 800000]⟩
abbrev S100000 : Shape := ⟨1, ![100000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S900000x64 : Shape := ⟨2, ![900000, 64]⟩
abbrev S1x64 : Shape := ⟨2, ![1, 64]⟩
abbrev S100000x1 : Shape := ⟨2, ![100000, 1]⟩
abbrev S64x1 : Shape := ⟨2, ![64, 1]⟩
abbrev S1x2 : Shape := ⟨2, ![1, 2]⟩

abbrev nBuf : Space → Nat
  | .hbm => 130
  | .vmem => 0
  | .smem => 0
  | _ => 0

abbrev hbmTy0_0 (i : Nat) : BufTy := match i % 128 with
  | 0 => ⟨S100000x64, .f32⟩
  | 1 => ⟨S2x800000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x2, .f32⟩
  | 10 => ⟨S2, .f32⟩
  | 11 => ⟨S100000, .i32⟩
  | 12 => ⟨S1x800000, .i32⟩
  | 13 => ⟨S800000, .i32⟩
  | 14 => ⟨S900000, .i32⟩
  | 15 => ⟨S1x800000, .i32⟩
  | 16 => ⟨S800000, .i32⟩
  | 17 => ⟨S900000, .i32⟩
  | 18 => ⟨S_, .f32⟩
  | 19 => ⟨S900000, .f32⟩
  | 20 => ⟨S_, .f32⟩
  | 21 => ⟨S100000, .f32⟩
  | 22 => ⟨S900000x1, .i32⟩
  | 23 => ⟨S100000, .f32⟩
  | 24 => ⟨S100000, .f32⟩
  | 25 => ⟨S_, .i32⟩
  | 26 => ⟨S900000, .i32⟩
  | 27 => ⟨S900000, .i1⟩
  | 28 => ⟨S_, .i32⟩
  | 29 => ⟨S900000, .i32⟩
  | 30 => ⟨S900000, .i32⟩
  | 31 => ⟨S900000, .i32⟩
  | 32 => ⟨S900000x1, .i32⟩
  | 33 => ⟨S900000, .f32⟩
  | 34 => ⟨S_, .i32⟩
  | 35 => ⟨S900000, .i32⟩
  | 36 => ⟨S900000, .i1⟩
  | 37 => ⟨S_, .i32⟩
  | 38 => ⟨S900000, .i32⟩
  | 39 => ⟨S900000, .i32⟩
  | 40 => ⟨S900000, .i32⟩
  | 41 => ⟨S900000x1, .i32⟩
  | 42 => ⟨S900000, .f32⟩
  | 43 => ⟨S900000, .f32⟩
  | 44 => ⟨S100000x64, .f32⟩
  | 45 => ⟨S_, .i32⟩
  | 46 => ⟨S900000, .i32⟩
  | 47 => ⟨S900000, .i1⟩
  | 48 => ⟨S_, .i32⟩
  | 49 => ⟨S900000, .i32⟩
  | 50 => ⟨S900000, .i32⟩
  | 51 => ⟨S900000, .i32⟩
  | 52 => ⟨S900000x1, .i32⟩
  | 53 => ⟨S900000x64, .f32⟩
  | 54 => ⟨S900000x1, .f32⟩
  | 55 => ⟨S900000x64, .f32⟩
  | 56 => ⟨S900000x64, .f32⟩
  | 57 => ⟨S_, .f32⟩
  | 58 => ⟨S100000x64, .f32⟩
  | 59 => ⟨S900000x1, .i32⟩
  | 60 => ⟨S100000x64, .f32⟩
  | 61 => ⟨S1x64, .f32⟩
  | 62 => ⟨S100000x64, .f32⟩
  | 63 => ⟨S100000x64, .f32⟩
  | 64 => ⟨S_, .f32⟩
  | 65 => ⟨S100000x64, .f32⟩
  | 66 => ⟨S100000x64, .f32⟩
  | 67 => ⟨S100000x64, .f32⟩
  | 68 => ⟨S_, .i32⟩
  | 69 => ⟨S900000, .i32⟩
  | 70 => ⟨S900000, .i1⟩
  | 71 => ⟨S_, .i32⟩
  | 72 => ⟨S900000, .i32⟩
  | 73 => ⟨S900000, .i32⟩
  | 74 => ⟨S900000, .i32⟩
  | 75 => ⟨S900000x1, .i32⟩
  | 76 => ⟨S900000x64, .f32⟩
  | 77 => ⟨S900000x1, .f32⟩
  | 78 => ⟨S900000x64, .f32⟩
  | 79 => ⟨S900000x64, .f32⟩
  | 80 => ⟨S_, .f32⟩
  | 81 => ⟨S100000x64, .f32⟩
  | 82 => ⟨S900000x1, .i32⟩
  | 83 => ⟨S100000x64, .f32⟩
  | 84 => ⟨S1x64, .f32⟩
  | 85 => ⟨S100000x64, .f32⟩
  | 86 => ⟨S100000x64, .f32⟩
  | 87 => ⟨S_, .f32⟩
  | 88 => ⟨S100000x64, .f32⟩
  | 89 => ⟨S100000x64, .f32⟩
  | 90 => ⟨S100000x64, .f32⟩
  | 91 => ⟨S_, .i32⟩
  | 92 => ⟨S900000, .i32⟩
  | 93 => ⟨S900000, .i1⟩
  | 94 => ⟨S_, .i32⟩
  | 95 => ⟨S900000, .i32⟩
  | 96 => ⟨S900000, .i32⟩
  | 97 => ⟨S900000, .i32⟩
  | 98 => ⟨S900000x1, .i32⟩
  | 99 => ⟨S900000x64, .f32⟩
  | 100 => ⟨S900000x1, .f32⟩
  | 101 => ⟨S900000x64, .f32⟩
  | 102 => ⟨S900000x64, .f32⟩
  | 103 => ⟨S_, .f32⟩
  | 104 => ⟨S100000x64, .f32⟩
  | 105 => ⟨S900000x1, .i32⟩
  | 106 => ⟨S100000x64, .f32⟩
  | 107 => ⟨S1x64, .f32⟩
  | 108 => ⟨S100000x64, .f32⟩
  | 109 => ⟨S100000x64, .f32⟩
  | 110 => ⟨S_, .f32⟩
  | 111 => ⟨S100000, .f32⟩
  | 112 => ⟨S_, .f32⟩
  | 113 => ⟨S64, .f32⟩
  | 114 => ⟨S100000x1, .i32⟩
  | 115 => ⟨S64, .f32⟩
  | 116 => ⟨S_, .f32⟩
  | 117 => ⟨S64x64, .f32⟩
  | 118 => ⟨S100000x1, .i32⟩
  | 119 => ⟨S64x64, .f32⟩
  | 120 => ⟨S_, .f32⟩
  | 121 => ⟨S64, .f32⟩
  | 122 => ⟨S64, .f32⟩
  | 123 => ⟨S64x1, .f32⟩
  | 124 => ⟨S64x64, .f32⟩
  | 125 => ⟨S64x64, .f32⟩
  | 126 => ⟨S64x2, .f32⟩
  | 127 => ⟨S1x2, .f32⟩
  | _ => ⟨S100000x64, .f32⟩

abbrev hbmTy0_1 (i : Nat) : BufTy := match i % 128 with
  | 0 => ⟨S64x2, .f32⟩
  | 1 => ⟨S64x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_call0_cst : Ref sig .tc := ⟨.hbm, 64, rfl⟩
abbrev main_call0_v0 : Ref sig .tc := ⟨.hbm, 65, rfl⟩
abbrev main_v44 : Ref sig .tc := ⟨.hbm, 66, rfl⟩
abbrev main_v45 : Ref sig .tc := ⟨.hbm, 67, rfl⟩
abbrev main_c_7 : Ref sig .tc := ⟨.hbm, 68, rfl⟩
abbrev main_v46 : Ref sig .tc := ⟨.hbm, 69, rfl⟩
abbrev main_v47 : Ref sig .tc := ⟨.hbm, 70, rfl⟩
abbrev main_c_8 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_call1_cst : Ref sig .tc := ⟨.hbm, 87, rfl⟩
abbrev main_call1_v0 : Ref sig .tc := ⟨.hbm, 88, rfl⟩
abbrev main_v62 : Ref sig .tc := ⟨.hbm, 89, rfl⟩
abbrev main_v63 : Ref sig .tc := ⟨.hbm, 90, rfl⟩
abbrev main_c_10 : Ref sig .tc := ⟨.hbm, 91, rfl⟩
abbrev main_v64 : Ref sig .tc := ⟨.hbm, 92, rfl⟩
abbrev main_v65 : Ref sig .tc := ⟨.hbm, 93, rfl⟩
abbrev main_c_11 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_12 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_13 : Ref sig .tc := ⟨.hbm, 110, rfl⟩
abbrev main_v80 : Ref sig .tc := ⟨.hbm, 111, rfl⟩
abbrev main_cst_14 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_15 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_16 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x64_0_1 : S900000x1.BroadcastsInDim S900000x64 (![0, 1] : Fin 2 → Fin S900000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S100000_S100000x1_0 : S100000.BroadcastsInDim S100000x1 (![0] : Fin 1 → Fin S100000x1.rank)
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S100000x64_S64x64_S100000x64_1_0_0_1_n_n_wf : DotDims.WF S100000x64 S64x64 S100000x64 [1] [0] [0] [1] [] []
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1
  scatter_S64_S100000x1_S100000_n_0_0_1_wf : ScatterDims.WF S64 S100000x1 S100000 [] [0] [0] 1
  scatter_S64x64_S100000x1_S100000x64_1_0_0_1_wf : ScatterDims.WF S64x64 S100000x1 S100000x64 [1] [0] [0] 1
  dot_S64x64_S64x2_S64x2_1_0_0_1_n_n_wf : DotDims.WF S64x64 S64x2 S64x2 [1] [0] [0] [1] [] []

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

class Facts : Prop extends Facts₀ where

variable [Facts]
-- ==== Proof.KRun.lean ====
/-
  The kernel program's run with its two results named. The generated frame certificate follows the buffers of
  the TensorCore through @main's eight segments — four stretches of host operations and four pallas_calls — as a
  fold of contents `W0 … W8` from the launch memory, and reads the final state against the last contents `W8`.
  The frame claim keeps only the argument arrays of that reading; the same run read at the two result buffers as
  well says what the program computes: each result array ends at `W8`'s contents there.
-/
import proofs.«158824_j60885456388842_1_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two result arrays at the last
    boundary's contents and the arguments as launched. -/
theorem run : θ_run defs (onTc (τ := τ) (main (F := F))) ⟨m, fun _ => 0, ρ⟩ (fun r => ∀ c : Dev nD,
      r.2.mem ((c.tc : Thread nD τ).loc main_v89) = W8 m ρ c (Proc.devRef .tc main_v89)
      ∧ r.2.mem ((c.tc : Thread nD τ).loc main_v59_1) = W8 m ρ c (Proc.devRef .tc main_v59_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v89 (by decide)),
       h c _ (mem_uc main_v59_1 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.KernelIdeal.RunAll

end
-- ==== Proof.Spec.lean ====
/-
  The dense layers of the network as plain mathematics on matrices of extended reals, stated once for both
  programs. A graph-convolution layer's dense part is: add a bias row to every row of the activations
  (`shift`), optionally clamp at zero (`relu`), and multiply by a weight matrix (`mm`: each entry the sum
  over the inner index of the products). The kernel computes these block by block with the matrix unit; the
  reference computes them on whole arrays; both are these three functions.
-/
import Idealize.ShloMosaic.PureOps.Ideal
import Idealize.ShloMosaic.PureOps.Ideal.Laws
import Idealize.ShloMosaic.Lib.ValueIdx

noncomputable section

namespace Cert.Dense

open Idealize.ShloMosaic Idealize.ShloMosaic.ValueIdx

/-- An `r × c` matrix of extended reals, indexed row-major as the arrays of both programs are. -/
abbrev Mat (r c : Nat) : Type := (⟨2, ![r, c]⟩ : Shape).Idx → EReal

/-- Every row of `x` plus the single row `b`: entry `(p, q)` is `x (p, q) + b (0, q)`. -/
def shift {r c : Nat} (x : Mat r c) (b : Mat 1 c) : Mat r c :=
  fun i => x i + b (ix2 (0 : Fin 1) (⟨(i 1).val, (i 1).isLt⟩ : Fin c))

/-- Clamp at zero, entry by entry. -/
def relu {r c : Nat} (x : Mat r c) : Mat r c := fun i => max (x i) 0

/-- The matrix product: entry `(p, q)` is the sum over `k` of `x (p, k) * W (k, q)`. -/
def mm {r n c : Nat} (x : Mat r n) (W : Mat n c) : Mat r c :=
  fun i => ∑ k : Fin n, x (ix2 (⟨(i 0).val, (i 0).isLt⟩ : Fin r) k) * W (ix2 k (⟨(i 1).val, (i 1).isLt⟩ : Fin c))

theorem shift_apply {r c : Nat} (x : Mat r c) (b : Mat 1 c) (p : Fin r) (q : Fin c) :
    shift x b (ix2 p q) = x (ix2 p q) + b (ix2 (0 : Fin 1) q) := rfl

theorem relu_apply {r c : Nat} (x : Mat r c) (i : (⟨2, ![r, c]⟩ : Shape).Idx) : relu x i = max (x i) 0 := rfl

theorem mm_apply {r n c : Nat} (x : Mat r n) (W : Mat n c) (p : Fin r) (q : Fin c) :
    mm x W (ix2 p q) = ∑ k : Fin n, x (ix2 p k) * W (ix2 k q) := rfl

/-- Adding the zero row changes nothing: `x + 0 = x` holds for every extended real, the infinities included. -/
theorem shift_zero {r c : Nat} (x : Mat r c) (b : Mat 1 c) (hb : ∀ j, b j = 0) : shift x b = x := by
  funext i
  unfold shift
  rw [hb, add_zero]

end Cert.Dense

end
-- ==== Proof.Region0.lean ====
/-
  Layer 1's dense transform as the kernel computes it. The first pallas_call tiles the 100000 rows of the
  activations into twenty blocks of 5000 rows; at each block it adds the (one-row) bias to every row and multiplies
  by the whole 64 x 64 weight matrix on the matrix unit, accumulating into zero. Read at the ideal values the
  format changes vanish and the matrix unit's result is the plain sum of products, so block `t` of the output is
  block `t` of `mm (shift x b) W`; the twenty blocks tile the array, so the array after the region IS
  `mm (shift x b) W` of the arrays the region found.
-/
import proofs.«158824_j60885456388842_1_alg».proof.Proof.Gen.KernelIdeal.Frame
import proofs.«158824_j60885456388842_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Cert.Dense
open Idealize.ShloMosaic Idealize.ShloMosaic.TcCoe Idealize.ShloMosaic.ValueIdx Idealize.SL.Sem

variable (V : (c : Dev nD) → (b : Ref sig .tc) → Buf (Elt Ideal) ((c : Thread nD τ).loc b))

namespace Region0

/-- The zero offsets of the body's whole-buffer accesses, as the constant function. -/
theorem zero_offsets : (![0, 0] : Fin 2 → Nat) = fun _ => 0 := funext fun a => by fin_cases a <;> rfl

/-! ## The matrix unit's operand indices -/

/-- The left operand's row at output index `j` is `j`'s row. -/
theorem lhs_row (j : S5000x64.Idx) (s : dot_S5000x64_S64x64_S5000x64_1_0_0_1_n_n.contr.Idx) :
    (dot_S5000x64_S64x64_S5000x64_1_0_0_1_n_n.lhsIdx j s 0).val = (j 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- The left operand's column is the contraction position. -/
theorem lhs_col (j : S5000x64.Idx) (s : dot_S5000x64_S64x64_S5000x64_1_0_0_1_n_n.contr.Idx) :
    (dot_S5000x64_S64x64_S5000x64_1_0_0_1_n_n.lhsIdx j s 1).val = (s ⟨0, by decide⟩).val :=
  dot_S5000x64_S64x64_S5000x64_1_0_0_1_n_n.lhsIdx_val_of_single rfl j s
/-- The right operand's row is the contraction position. -/
theorem rhs_row (j : S5000x64.Idx) (s : dot_S5000x64_S64x64_S5000x64_1_0_0_1_n_n.contr.Idx) :
    (dot_S5000x64_S64x64_S5000x64_1_0_0_1_n_n.rhsIdx j s 0).val = (s ⟨0, by decide⟩).val :=
  dot_S5000x64_S64x64_S5000x64_1_0_0_1_n_n.rhsIdx_val_of_single rfl j s
/-- The right operand's column at output index `j` is `j`'s column. -/
theorem rhs_col (j : S5000x64.Idx) (s : dot_S5000x64_S64x64_S5000x64_1_0_0_1_n_n.contr.Idx) :
    (dot_S5000x64_S64x64_S5000x64_1_0_0_1_n_n.rhsIdx j s 1).val = (j 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The product of a 5000 x 64 block with the 64 x 64 weights, accumulated into zero, at entry `(p, q)`: the sum
    over the inner index of the products. -/
theorem matmul_zero_apply (a : FVec Ideal S5000x64 .bf16) (w : FVec Ideal S64x64 .bf16) (p : Fin 5000) (q : Fin 64) :
    matmul dot_S5000x64_S64x64_S5000x64_1_0_0_1_n_n none a w (constant S5000x64 .f32 0x00000000#32) (ix2 p q)
      = ∑ k : Fin 64, a (ix2 p k) * w (ix2 k q) := by
  refine (Ideal.matmul_constant_zero_apply dot_S5000x64_S64x64_S5000x64_1_0_0_1_n_n none a w (ix2 p q)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun ax => Fin.ext (by
    match ax with
    | ⟨0, _⟩ => exact lhs_row _ _
    | ⟨1, _⟩ => exact (lhs_col _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun ax => Fin.ext (by
    match ax with
    | ⟨0, _⟩ => exact (rhs_row _ _).trans hk
    | ⟨1, _⟩ => exact rhs_col _ _)
  rw [el, er]

/-! ## The body's result at an entry -/

/-- What the body stores, at entry `(p, q)` of the block: the sum over `k` of (activation `(p, k)` plus bias `k`)
    times weight `(k, q)`. The format changes are the identity on the ideal values. -/
theorem payload_apply (x0 : Vec Ideal S5000x64 .f32) (x1 : Vec Ideal S1x64 .f32) (x2 : Vec Ideal S64x64 .f32)
    (p : Fin 5000) (q : Fin 64) :
    k0_pay1 (F := Ideal) x0 x1 x2 (ix2 p q) = ∑ k : Fin 64, (x0 (ix2 p k) + x1 (ix2 (0 : Fin 1) k)) * x2 (ix2 k q) := by
  unfold k0_pay1
  refine (matmul_zero_apply _ _ p q).trans ?_
  refine Finset.sum_congr rfl fun k _ => ?_
  show (x0 (ix2 p k) + broadcastTo S5000x64 (shapeCast S1x64 x1 shapeCasts_S1x64_S1x64) broadcasts_S1x64_S5000x64 (ix2 p k)) * x2 (ix2 k q) = _
  rw [shapeCast_self, broadcastTo_1b_ab_apply]

/-! ## The index maps, decided over the twenty grid points -/

/-- The activations' window moves with the output's down the rows; the bias and the weights stay at their one
    block; no window moves along the columns; the output's block index is at most 19. -/
theorem index_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (1 : Fin 2) = 0
    ∧ win0_3.index t (0 : Fin 2) ≤ 19 :=
  (by decide +kernel : ∀ t : Fin grid0.N, _)

/-- Every one of the twenty row blocks is some grid point's. -/
theorem index_onto : ∀ r : Fin 20, ∃ t : Fin cfg0.N, win0_3.index t = ![r.val, 0] :=
  (by decide +kernel : ∀ r : Fin 20, ∃ t : Fin grid0.N, win0_3.index t = ![r.val, 0])

/-! ## What a grid point writes back -/

/-- Grid point `t` writes back block `t` of the product of the shifted activations with the weights. -/
theorem flushed_eq (c : Dev nD) (t : Fin cfg0.N) :
    (dat0 (F := Ideal) V c).flushed 3 t
      = ((cfg0.win 3).blk t).view.read (Elt Ideal) (mm (shift (V c main_arg0) (V c main_v28)) (V c main_arg3)) := by
  show (cfg0.win 3).cut (grid0.coords t) ((dat0 (F := Ideal) V c).after 3 t) = _
  rw [after0_3]
  unfold out0_3
  rw [View.canon_unit_zero zero_offsets]
  simp only [View.ld_unit_zero (S := S5000x64) zero_offsets, View.ld_unit_zero (S := S1x64) zero_offsets, View.ld_unit_zero (S := S64x64) zero_offsets]
  obtain ⟨e0, e1, e2, e3, e4, e5, e6, e7⟩ := index_facts t
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (iblk0 V c 2 t) (ix2 p q)
    = mm (shift (V c main_arg0) (V c main_v28)) (V c main_arg3) (((cfg0.win 3).blk t).view.emb (ix2 p q))
  refine (payload_apply (iblk0 V c 0 t) (iblk0 V c 1 t) (iblk0 V c 2 t) p q).trans ?_
  unfold mm
  refine Finset.sum_congr rfl fun k _ => ?_
  have hx : iblk0 V c 0 t (ix2 p k)
      = V c main_arg0 (ix2 (⟨((((cfg0.win 3).blk t).view.emb (ix2 p q)) 0).val, ((((cfg0.win 3).blk t).view.emb (ix2 p q)) 0).isLt⟩ : Fin 100000) k) := by
    show V c main_arg0 (((cfg0.win 0).blk t).view.emb (ix2 p k)) = _
    refine congrArg (V c main_arg0) (funext fun ax => Fin.ext ?_)
    match ax with
    | ⟨0, _⟩ => show win0_0.index t (0 : Fin 2) * 5000 + 1 * p.val = win0_3.index t (0 : Fin 2) * 5000 + 1 * p.val; omega
    | ⟨1, _⟩ => show win0_0.index t (1 : Fin 2) * 64 + 1 * k.val = k.val; omega
  have hb : iblk0 V c 1 t (ix2 (0 : Fin 1) k) = V c main_v28 (ix2 (0 : Fin 1) k) := by
    show V c main_v28 (((cfg0.win 1).blk t).view.emb (ix2 (0 : Fin 1) k)) = _
    refine congrArg (V c main_v28) (funext fun ax => Fin.ext ?_)
    match ax with
    | ⟨0, _⟩ => show win0_1.index t (0 : Fin 2) * 1 + 1 * 0 = 0; omega
    | ⟨1, _⟩ => show win0_1.index t (1 : Fin 2) * 64 + 1 * k.val = k.val; omega
  have hw : iblk0 V c 2 t (ix2 k q)
      = V c main_arg3 (ix2 k (⟨((((cfg0.win 3).blk t).view.emb (ix2 p q)) 1).val, ((((cfg0.win 3).blk t).view.emb (ix2 p q)) 1).isLt⟩ : Fin 64)) := by
    show V c main_arg3 (((cfg0.win 2).blk t).view.emb (ix2 k q)) = _
    refine congrArg (V c main_arg3) (funext fun ax => Fin.ext ?_)
    match ax with
    | ⟨0, _⟩ => show win0_2.index t (0 : Fin 2) * 64 + 1 * k.val = k.val; omega
    | ⟨1, _⟩ => show win0_2.index t (1 : Fin 2) * 64 + 1 * q.val = win0_3.index t (1 : Fin 2) * 64 + 1 * q.val; omega
  exact congrArg₂ (· * ·) (congrArg₂ (· + ·) hx hb) hw

/-! ## The twenty blocks tile the array -/

/-- An index of the array is in point `t`'s block iff each coordinate is in the block's range on its axis. -/
theorem mem_block (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v29).slice (win0_3.rect t)).set ↔ _
  rw [View.set_slice_whole, Rect.mem_set_unit]
  exact Iff.rfl

/-- Row `r` of the array is in the block of the grid point whose block index is `r / 5000`. -/
theorem covered (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := index_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

end Region0

/-- The array region 0 leaves in its output window: the product of the shifted activations with the weights. -/
theorem region0 (c : Dev nD) :
    (dat0 (F := Ideal) V c).arrAt 3 cfg0.N = mm (shift (V c main_arg0) (V c main_v28)) (V c main_arg3) :=
  (dat0 (F := Ideal) V c).arrAt_eq_of_cover 3 (mm (shift (V c main_arg0) (V c main_v28)) (V c main_arg3))
    (fun t _ => Region0.flushed_eq V c t) Region0.covered

end Cert.KernelIdeal.RegionValue

end
-- ==== Proof.Region1.lean ====
/-
  Layer 2's dense transform as the kernel computes it: twenty blocks of 5000 rows; at each block the bias row is
  added to every row, the result clamped at zero, and multiplied by the 64 x 64 weights into a zero accumulator.
  At the ideal values block `t` of the output is block `t` of `mm (relu (shift x b)) W`, and the blocks tile
  the array.
-/
import proofs.«158824_j60885456388842_1_alg».proof.Proof.Gen.KernelIdeal.Frame
import proofs.«158824_j60885456388842_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Cert.Dense
open Idealize.ShloMosaic Idealize.ShloMosaic.TcCoe Idealize.ShloMosaic.ValueIdx Idealize.SL.Sem

variable (V : (c : Dev nD) → (b : Ref sig .tc) → Buf (Elt Ideal) ((c : Thread nD τ).loc b))

namespace Region1

/-- The zero offsets of the body's whole-buffer accesses, as the constant function. -/
theorem zero_offsets : (![0, 0] : Fin 2 → Nat) = fun _ => 0 := funext fun a => by fin_cases a <;> rfl

/-! ## The matrix unit's operand indices -/

/-- The left operand's row at output index `j` is `j`'s row. -/
theorem lhs_row (j : S5000x64.Idx) (s : dot_S5000x64_S64x64_S5000x64_1_0_0_1_n_n.contr.Idx) :
    (dot_S5000x64_S64x64_S5000x64_1_0_0_1_n_n.lhsIdx j s 0).val = (j 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- The left operand's column is the contraction position. -/
theorem lhs_col (j : S5000x64.Idx) (s : dot_S5000x64_S64x64_S5000x64_1_0_0_1_n_n.contr.Idx) :
    (dot_S5000x64_S64x64_S5000x64_1_0_0_1_n_n.lhsIdx j s 1).val = (s ⟨0, by decide⟩).val :=
  dot_S5000x64_S64x64_S5000x64_1_0_0_1_n_n.lhsIdx_val_of_single rfl j s
/-- The right operand's row is the contraction position. -/
theorem rhs_row (j : S5000x64.Idx) (s : dot_S5000x64_S64x64_S5000x64_1_0_0_1_n_n.contr.Idx) :
    (dot_S5000x64_S64x64_S5000x64_1_0_0_1_n_n.rhsIdx j s 0).val = (s ⟨0, by decide⟩).val :=
  dot_S5000x64_S64x64_S5000x64_1_0_0_1_n_n.rhsIdx_val_of_single rfl j s
/-- The right operand's column at output index `j` is `j`'s column. -/
theorem rhs_col (j : S5000x64.Idx) (s : dot_S5000x64_S64x64_S5000x64_1_0_0_1_n_n.contr.Idx) :
    (dot_S5000x64_S64x64_S5000x64_1_0_0_1_n_n.rhsIdx j s 1).val = (j 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The product of a 5000 x 64 block with the 64 x 64 weights, accumulated into zero, at entry `(p, q)`: the sum
    over the inner index of the products. -/
theorem matmul_zero_apply (a : FVec Ideal S5000x64 .bf16) (w : FVec Ideal S64x64 .bf16) (p : Fin 5000) (q : Fin 64) :
    matmul dot_S5000x64_S64x64_S5000x64_1_0_0_1_n_n none a w (constant S5000x64 .f32 0x00000000#32) (ix2 p q)
      = ∑ k : Fin 64, a (ix2 p k) * w (ix2 k q) := by
  refine (Ideal.matmul_constant_zero_apply dot_S5000x64_S64x64_S5000x64_1_0_0_1_n_n none a w (ix2 p q)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun ax => Fin.ext (by
    match ax with
    | ⟨0, _⟩ => exact lhs_row _ _
    | ⟨1, _⟩ => exact (lhs_col _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun ax => Fin.ext (by
    match ax with
    | ⟨0, _⟩ => exact (rhs_row _ _).trans hk
    | ⟨1, _⟩ => exact rhs_col _ _)
  rw [el, er]

/-! ## The body's result at an entry -/

/-- The clamped, shifted activations at entry `(p, k)` of the block: activation plus bias, then the larger of that
    and zero. The literal the body compares against is the real number zero. -/
theorem clamped_apply (x0 : Vec Ideal S5000x64 .f32) (x1 : Vec Ideal S1x64 .f32) (p : Fin 5000) (k : Fin 64) :
    maximumf (addf (shapeCast S5000x64 x0 shapeCasts_S5000x64_S5000x64)
        (broadcastTo S5000x64 (shapeCast S1x64 x1 shapeCasts_S1x64_S1x64) broadcasts_S1x64_S5000x64))
      (broadcast S5000x64 (Scalar.ofBits (F := Ideal) .f32 0x00000000#32)) (ix2 p k)
      = max (x0 (ix2 p k) + x1 (ix2 (0 : Fin 1) k)) 0 := by
  show max (shapeCast S5000x64 x0 shapeCasts_S5000x64_S5000x64 (ix2 p k)
      + broadcastTo S5000x64 (shapeCast S1x64 x1 shapeCasts_S1x64_S1x64) broadcasts_S1x64_S5000x64 (ix2 p k))
    (Ideal.ofBits .f32 0x00000000#32) = _
  rw [shapeCast_self, shapeCast_self, broadcastTo_1b_ab_apply, Ideal.ofBits_zero_f32]

/-- What the body stores, at entry `(p, q)` of the block: the sum over `k` of the clamped (activation `(p, k)` plus
    bias `k`) times weight `(k, q)`. The format changes are the identity on the ideal values. -/
theorem payload_apply (x0 : Vec Ideal S5000x64 .f32) (x1 : Vec Ideal S1x64 .f32) (x2 : Vec Ideal S64x64 .f32)
    (p : Fin 5000) (q : Fin 64) :
    k1_pay1 (F := Ideal) x0 x1 x2 (ix2 p q)
      = ∑ k : Fin 64, max (x0 (ix2 p k) + x1 (ix2 (0 : Fin 1) k)) 0 * x2 (ix2 k q) := by
  unfold k1_pay1
  refine (matmul_zero_apply _ _ p q).trans ?_
  refine Finset.sum_congr rfl fun k _ => ?_
  exact congrArg (· * x2 (ix2 k q)) (clamped_apply x0 x1 p k)

/-! ## The index maps, decided over the twenty grid points -/

/-- The activations' window moves with the output's down the rows; the bias and the weights stay at their one
    block; no window moves along the columns; the output's block index is at most 19. -/
theorem index_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) ≤ 19 :=
  (by decide +kernel : ∀ t : Fin grid1.N, _)

/-- Every one of the twenty row blocks is some grid point's. -/
theorem index_onto : ∀ r : Fin 20, ∃ t : Fin cfg1.N, win1_3.index t = ![r.val, 0] :=
  (by decide +kernel : ∀ r : Fin 20, ∃ t : Fin grid1.N, win1_3.index t = ![r.val, 0])

/-! ## What a grid point writes back -/

/-- Grid point `t` writes back block `t` of the product of the clamped, shifted activations with the weights. -/
theorem flushed_eq (c : Dev nD) (t : Fin cfg1.N) :
    (dat1 (F := Ideal) V c).flushed 3 t
      = ((cfg1.win 3).blk t).view.read (Elt Ideal) (mm (relu (shift (V c main_v42) (V c main_v43))) (V c main_arg5)) := by
  show (cfg1.win 3).cut (grid1.coords t) ((dat1 (F := Ideal) V c).after 3 t) = _
  rw [after1_3]
  unfold out1_3
  rw [View.canon_unit_zero zero_offsets]
  simp only [View.ld_unit_zero (S := S5000x64) zero_offsets, View.ld_unit_zero (S := S1x64) zero_offsets, View.ld_unit_zero (S := S64x64) zero_offsets]
  obtain ⟨e0, e1, e2, e3, e4, e5, e6, e7⟩ := index_facts t
  funext j
  obtain ⟨p, q, rfl⟩ : ∃ (p : Fin 5000) (q : Fin 64), j = ix2 p q := ⟨j 0, j 1, eq_ix2 j⟩
  show k1_pay1 (F := Ideal) (iblk1 V c 0 t) (iblk1 V c 1 t) (iblk1 V c 2 t) (ix2 p q)
    = mm (relu (shift (V c main_v42) (V c main_v43))) (V c main_arg5) (((cfg1.win 3).blk t).view.emb (ix2 p q))
  refine (payload_apply (iblk1 V c 0 t) (iblk1 V c 1 t) (iblk1 V c 2 t) p q).trans ?_
  unfold mm
  refine Finset.sum_congr rfl fun k _ => ?_
  have hx : iblk1 V c 0 t (ix2 p k)
      = V c main_v42 (ix2 (⟨((((cfg1.win 3).blk t).view.emb (ix2 p q)) 0).val, ((((cfg1.win 3).blk t).view.emb (ix2 p q)) 0).isLt⟩ : Fin 100000) k) := by
    show V c main_v42 (((cfg1.win 0).blk t).view.emb (ix2 p k)) = _
    refine congrArg (V c main_v42) (funext fun ax => Fin.ext ?_)
    match ax with
    | ⟨0, _⟩ => show win1_0.index t (0 : Fin 2) * 5000 + 1 * p.val = win1_3.index t (0 : Fin 2) * 5000 + 1 * p.val; omega
    | ⟨1, _⟩ => show win1_0.index t (1 : Fin 2) * 64 + 1 * k.val = k.val; omega
  have hb : iblk1 V c 1 t (ix2 (0 : Fin 1) k) = V c main_v43 (ix2 (0 : Fin 1) k) := by
    show V c main_v43 (((cfg1.win 1).blk t).view.emb (ix2 (0 : Fin 1) k)) = _
    refine congrArg (V c main_v43) (funext fun ax => Fin.ext ?_)
    match ax with
    | ⟨0, _⟩ => show win1_1.index t (0 : Fin 2) * 1 + 1 * 0 = 0; omega
    | ⟨1, _⟩ => show win1_1.index t (1 : Fin 2) * 64 + 1 * k.val = k.val; omega
  have hw : iblk1 V c 2 t (ix2 k q)
      = V c main_arg5 (ix2 k (⟨((((cfg1.win 3).blk t).view.emb (ix2 p q)) 1).val, ((((cfg1.win 3).blk t).view.emb (ix2 p q)) 1).isLt⟩ : Fin 64)) := by
    show V c main_arg5 (((cfg1.win 2).blk t).view.emb (ix2 k q)) = _
    refine congrArg (V c main_arg5) (funext fun ax => Fin.ext ?_)
    match ax with
    | ⟨0, _⟩ => show win1_2.index t (0 : Fin 2) * 64 + 1 * k.val = k.val; omega
    | ⟨1, _⟩ => show win1_2.index t (1 : Fin 2) * 64 + 1 * q.val = win1_3.index t (1 : Fin 2) * 64 + 1 * q.val; omega
  exact congrArg₂ (· * ·) (congrArg (max · 0) (congrArg₂ (· + ·) hx hb)) hw

/-! ## The twenty blocks tile the array -/

/-- An index of the array is in point `t`'s block iff each coordinate is in the block's range on its axis. -/
theorem mem_block (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v44).slice (win1_3.rect t)).set ↔ _
  rw [View.set_slice_whole, Rect.mem_set_unit]
  exact Iff.rfl

/-- Row `r` of the array is in the block of the grid point whose block index is `r / 5000`. -/
theorem covered (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := index_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

end Region1

/-- The array region 1 leaves in its output window. -/
theorem region1 (c : Dev nD) :
    (dat1 (F := Ideal) V c).arrAt 3 cfg1.N = mm (relu (shift (V c main_v42) (V c main_v43))) (V c main_arg5) :=
  (dat1 (F := Ideal) V c).arrAt_eq_of_cover 3 (mm (relu (shift (V c main_v42) (V c main_v43))) (V c main_arg5))
    (fun t _ => Region1.flushed_eq V c t) Region1.covered

end Cert.KernelIdeal.RegionValue

end
-- ==== Proof.Region2.lean ====
/-
  Layer 3's dense transform as the kernel computes it, with the clamped activations kept: twenty blocks of 5000
  rows; at each block `h = relu (shift x b)` is stored to the second output (the embeddings) and `mm h W` to the
  first. Both outputs' blocks tile their arrays.
-/
import proofs.«158824_j60885456388842_1_alg».proof.Proof.Gen.KernelIdeal.Frame
import proofs.«158824_j60885456388842_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Cert.Dense
open Idealize.ShloMosaic Idealize.ShloMosaic.TcCoe Idealize.ShloMosaic.ValueIdx Idealize.SL.Sem

variable (V : (c : Dev nD) → (b : Ref sig .tc) → Buf (Elt Ideal) ((c : Thread nD τ).loc b))

namespace Region2

/-- The zero offsets of the body's whole-buffer accesses, as the constant function. -/
theorem zero_offsets : (![0, 0] : Fin 2 → Nat) = fun _ => 0 := funext fun a => by fin_cases a <;> rfl

/-! ## The matrix unit's operand indices -/

/-- The left operand's row at output index `j` is `j`'s row. -/
theorem lhs_row (j : S5000x64.Idx) (s : dot_S5000x64_S64x64_S5000x64_1_0_0_1_n_n.contr.Idx) :
    (dot_S5000x64_S64x64_S5000x64_1_0_0_1_n_n.lhsIdx j s 0).val = (j 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- The left operand's column is the contraction position. -/
theorem lhs_col (j : S5000x64.Idx) (s : dot_S5000x64_S64x64_S5000x64_1_0_0_1_n_n.contr.Idx) :
    (dot_S5000x64_S64x64_S5000x64_1_0_0_1_n_n.lhsIdx j s 1).val = (s ⟨0, by decide⟩).val :=
  dot_S5000x64_S64x64_S5000x64_1_0_0_1_n_n.lhsIdx_val_of_single rfl j s
/-- The right operand's row is the contraction position. -/
theorem rhs_row (j : S5000x64.Idx) (s : dot_S5000x64_S64x64_S5000x64_1_0_0_1_n_n.contr.Idx) :
    (dot_S5000x64_S64x64_S5000x64_1_0_0_1_n_n.rhsIdx j s 0).val = (s ⟨0, by decide⟩).val :=
  dot_S5000x64_S64x64_S5000x64_1_0_0_1_n_n.rhsIdx_val_of_single rfl j s
/-- The right operand's column at output index `j` is `j`'s column. -/
theorem rhs_col (j : S5000x64.Idx) (s : dot_S5000x64_S64x64_S5000x64_1_0_0_1_n_n.contr.Idx) :
    (dot_S5000x64_S64x64_S5000x64_1_0_0_1_n_n.rhsIdx j s 1).val = (j 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The product of a 5000 x 64 block with the 64 x 64 weights, accumulated into zero, at entry `(p, q)`: the sum
    over the inner index of the products. -/
theorem matmul_zero_apply (a : FVec Ideal S5000x64 .bf16) (w : FVec Ideal S64x64 .bf16) (p : Fin 5000) (q : Fin 64) :
    matmul dot_S5000x64_S64x64_S5000x64_1_0_0_1_n_n none a w (constant S5000x64 .f32 0x00000000#32) (ix2 p q)
      = ∑ k : Fin 64, a (ix2 p k) * w (ix2 k q) := by
  refine (Ideal.matmul_constant_zero_apply dot_S5000x64_S64x64_S5000x64_1_0_0_1_n_n none a w (ix2 p q)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun ax => Fin.ext (by
    match ax with
    | ⟨0, _⟩ => exact lhs_row _ _
    | ⟨1, _⟩ => exact (lhs_col _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun ax => Fin.ext (by
    match ax with
    | ⟨0, _⟩ => exact (rhs_row _ _).trans hk
    | ⟨1, _⟩ => exact rhs_col _ _)
  rw [el, er]

/-! ## The body's two results at an entry -/

/-- What the body stores to the embeddings, at entry `(p, k)` of the block: activation plus bias, then the larger
    of that and zero. The literal the body compares against is the real number zero. -/
theorem clamped_apply (x0 : Vec Ideal S5000x64 .f32) (x1 : Vec Ideal S1x64 .f32) (p : Fin 5000) (k : Fin 64) :
    k2_pay1 (F := Ideal) x0 x1 (ix2 p k) = max (x0 (ix2 p k) + x1 (ix2 (0 : Fin 1) k)) 0 := by
  unfold k2_pay1
  show max (shapeCast S5000x64 x0 shapeCasts_S5000x64_S5000x64 (ix2 p k)
      + broadcastTo S5000x64 (shapeCast S1x64 x1 shapeCasts_S1x64_S1x64) broadcasts_S1x64_S5000x64 (ix2 p k))
    (Ideal.ofBits .f32 0x00000000#32) = _
  rw [shapeCast_self, shapeCast_self, broadcastTo_1b_ab_apply, Ideal.ofBits_zero_f32]

/-- What the body stores to the product, at entry `(p, q)` of the block: the sum over `k` of the clamped
    (activation `(p, k)` plus bias `k`) times weight `(k, q)`. The format changes are the identity on the ideal values. -/
theorem payload_apply (x0 : Vec Ideal S5000x64 .f32) (x1 : Vec Ideal S1x64 .f32) (x2 : Vec Ideal S64x64 .f32)
    (p : Fin 5000) (q : Fin 64) :
    k2_pay2 (F := Ideal) x0 x1 x2 (ix2 p q)
      = ∑ k : Fin 64, max (x0 (ix2 p k) + x1 (ix2 (0 : Fin 1) k)) 0 * x2 (ix2 k q) := by
  unfold k2_pay2
  refine (matmul_zero_apply _ _ p q).trans ?_
  refine Finset.sum_congr rfl fun k _ => ?_
  exact congrArg (· * x2 (ix2 k q)) (clamped_apply x0 x1 p k)

/-! ## The index maps, decided over the twenty grid points -/

/-- The activations' window moves with both outputs' down the rows; the bias and the weights stay at their one
    block; no window moves along the columns; the outputs' block index is at most 19. -/
theorem index_facts : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (1 : Fin 2) = 0
    ∧ win2_3.index t (0 : Fin 2) ≤ 19
    ∧ win2_4.index t (0 : Fin 2) = win2_3.index t (0 : Fin 2)
    ∧ win2_4.index t (1 : Fin 2) = 0 :=
  (by decide +kernel : ∀ t : Fin grid2.N, _)

/-- Every one of the twenty row blocks of the product is some grid point's. -/
theorem index_onto_product : ∀ r : Fin 20, ∃ t : Fin cfg2.N, win2_3.index t = ![r.val, 0] :=
  (by decide +kernel : ∀ r : Fin 20, ∃ t : Fin grid2.N, win2_3.index t = ![r.val, 0])

/-- Every one of the twenty row blocks of the embeddings is some grid point's. -/
theorem index_onto_embeddings : ∀ r : Fin 20, ∃ t : Fin cfg2.N, win2_4.index t = ![r.val, 0] :=
  (by decide +kernel : ∀ r : Fin 20, ∃ t : Fin grid2.N, win2_4.index t = ![r.val, 0])

/-! ## What a grid point writes back -/

/-- Grid point `t` writes back, to the product, block `t` of the product of the clamped, shifted activations with
    the weights. -/
theorem flushed_product_eq (c : Dev nD) (t : Fin cfg2.N) :
    (dat2 (F := Ideal) V c).flushed 3 t
      = ((cfg2.win 3).blk t).view.read (Elt Ideal) (mm (relu (shift (V c main_v57) (V c main_v58))) (V c main_arg7)) := by
  show (cfg2.win 3).cut (grid2.coords t) ((dat2 (F := Ideal) V c).after 3 t) = _
  rw [after2_3]
  unfold out2_3
  rw [View.canon_unit_zero zero_offsets]
  simp only [View.ld_unit_zero (S := S5000x64) zero_offsets, View.ld_unit_zero (S := S1x64) zero_offsets, View.ld_unit_zero (S := S64x64) zero_offsets]
  obtain ⟨e0, e1, e2, e3, e4, e5, e6, e7, e8, e9⟩ := index_facts t
  funext j
  obtain ⟨p, q, rfl⟩ : ∃ (p : Fin 5000) (q : Fin 64), j = ix2 p q := ⟨j 0, j 1, eq_ix2 j⟩
  show k2_pay2 (F := Ideal) (iblk2 V c 0 t) (iblk2 V c 1 t) (iblk2 V c 2 t) (ix2 p q)
    = mm (relu (shift (V c main_v57) (V c main_v58))) (V c main_arg7) (((cfg2.win 3).blk t).view.emb (ix2 p q))
  refine (payload_apply (iblk2 V c 0 t) (iblk2 V c 1 t) (iblk2 V c 2 t) p q).trans ?_
  unfold mm
  refine Finset.sum_congr rfl fun k _ => ?_
  have hx : iblk2 V c 0 t (ix2 p k)
      = V c main_v57 (ix2 (⟨((((cfg2.win 3).blk t).view.emb (ix2 p q)) 0).val, ((((cfg2.win 3).blk t).view.emb (ix2 p q)) 0).isLt⟩ : Fin 100000) k) := by
    show V c main_v57 (((cfg2.win 0).blk t).view.emb (ix2 p k)) = _
    refine congrArg (V c main_v57) (funext fun ax => Fin.ext ?_)
    match ax with
    | ⟨0, _⟩ => show win2_0.index t (0 : Fin 2) * 5000 + 1 * p.val = win2_3.index t (0 : Fin 2) * 5000 + 1 * p.val; omega
    | ⟨1, _⟩ => show win2_0.index t (1 : Fin 2) * 64 + 1 * k.val = k.val; omega
  have hb : iblk2 V c 1 t (ix2 (0 : Fin 1) k) = V c main_v58 (ix2 (0 : Fin 1) k) := by
    show V c main_v58 (((cfg2.win 1).blk t).view.emb (ix2 (0 : Fin 1) k)) = _
    refine congrArg (V c main_v58) (funext fun ax => Fin.ext ?_)
    match ax with
    | ⟨0, _⟩ => show win2_1.index t (0 : Fin 2) * 1 + 1 * 0 = 0; omega
    | ⟨1, _⟩ => show win2_1.index t (1 : Fin 2) * 64 + 1 * k.val = k.val; omega
  have hw : iblk2 V c 2 t (ix2 k q)
      = V c main_arg7 (ix2 k (⟨((((cfg2.win 3).blk t).view.emb (ix2 p q)) 1).val, ((((cfg2.win 3).blk t).view.emb (ix2 p q)) 1).isLt⟩ : Fin 64)) := by
    show V c main_arg7 (((cfg2.win 2).blk t).view.emb (ix2 k q)) = _
    refine congrArg (V c main_arg7) (funext fun ax => Fin.ext ?_)
    match ax with
    | ⟨0, _⟩ => show win2_2.index t (0 : Fin 2) * 64 + 1 * k.val = k.val; omega
    | ⟨1, _⟩ => show win2_2.index t (1 : Fin 2) * 64 + 1 * q.val = win2_3.index t (1 : Fin 2) * 64 + 1 * q.val; omega
  exact congrArg₂ (· * ·) (congrArg (max · 0) (congrArg₂ (· + ·) hx hb)) hw

/-- Grid point `t` writes back, to the embeddings, block `t` of the clamped, shifted activations. -/
theorem flushed_embeddings_eq (c : Dev nD) (t : Fin cfg2.N) :
    (dat2 (F := Ideal) V c).flushed 4 t
      = ((cfg2.win 4).blk t).view.read (Elt Ideal) (relu (shift (V c main_v57) (V c main_v58))) := by
  show (cfg2.win 4).cut (grid2.coords t) ((dat2 (F := Ideal) V c).after 4 t) = _
  rw [after2_4]
  unfold out2_4
  rw [View.canon_unit_zero zero_offsets]
  simp only [View.ld_unit_zero (S := S5000x64) zero_offsets, View.ld_unit_zero (S := S1x64) zero_offsets]
  obtain ⟨e0, e1, e2, e3, e4, e5, e6, e7, e8, e9⟩ := index_facts t
  funext j
  obtain ⟨p, q, rfl⟩ : ∃ (p : Fin 5000) (q : Fin 64), j = ix2 p q := ⟨j 0, j 1, eq_ix2 j⟩
  show k2_pay1 (F := Ideal) (iblk2 V c 0 t) (iblk2 V c 1 t) (ix2 p q)
    = relu (shift (V c main_v57) (V c main_v58)) (((cfg2.win 4).blk t).view.emb (ix2 p q))
  refine (clamped_apply (iblk2 V c 0 t) (iblk2 V c 1 t) p q).trans ?_
  have hx : iblk2 V c 0 t (ix2 p q) = V c main_v57 (((cfg2.win 4).blk t).view.emb (ix2 p q)) := by
    show V c main_v57 (((cfg2.win 0).blk t).view.emb (ix2 p q)) = _
    refine congrArg (V c main_v57) (funext fun ax => Fin.ext ?_)
    match ax with
    | ⟨0, _⟩ => show win2_0.index t (0 : Fin 2) * 5000 + 1 * p.val = win2_4.index t (0 : Fin 2) * 5000 + 1 * p.val; omega
    | ⟨1, _⟩ => show win2_0.index t (1 : Fin 2) * 64 + 1 * q.val = win2_4.index t (1 : Fin 2) * 64 + 1 * q.val; omega
  have hb : iblk2 V c 1 t (ix2 (0 : Fin 1) q)
      = V c main_v58 (ix2 (0 : Fin 1) (⟨((((cfg2.win 4).blk t).view.emb (ix2 p q)) 1).val, ((((cfg2.win 4).blk t).view.emb (ix2 p q)) 1).isLt⟩ : Fin 64)) := by
    show V c main_v58 (((cfg2.win 1).blk t).view.emb (ix2 (0 : Fin 1) q)) = _
    refine congrArg (V c main_v58) (funext fun ax => Fin.ext ?_)
    match ax with
    | ⟨0, _⟩ => show win2_1.index t (0 : Fin 2) * 1 + 1 * 0 = 0; omega
    | ⟨1, _⟩ => show win2_1.index t (1 : Fin 2) * 64 + 1 * q.val = win2_4.index t (1 : Fin 2) * 64 + 1 * q.val; omega
  exact congrArg (max · 0) (congrArg₂ (· + ·) hx hb)

/-! ## The twenty blocks tile each output array -/

/-- An index of the product array is in point `t`'s block iff each coordinate is in the block's range on its axis. -/
theorem mem_block_product (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v59_0).slice (win2_3.rect t)).set ↔ _
  rw [View.set_slice_whole, Rect.mem_set_unit]
  exact Iff.rfl

/-- The same for the embeddings array. -/
theorem mem_block_embeddings (t : Fin cfg2.N) (i : S100000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v59_1).slice (win2_4.rect t)).set ↔ _
  rw [View.set_slice_whole, Rect.mem_set_unit]
  exact Iff.rfl

/-- Row `r` of the product array is in the block of the grid point whose block index is `r / 5000`. -/
theorem covered_product (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ := index_onto_product ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_block_product]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- Row `r` of the embeddings array is in the block of the grid point whose block index is `r / 5000`. -/
theorem covered_embeddings (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  obtain ⟨t, ht⟩ := index_onto_embeddings ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_block_embeddings]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega

end Region2

/-- The product output of region 2. -/
theorem region2_product (c : Dev nD) :
    (dat2 (F := Ideal) V c).arrAt 3 cfg2.N = mm (relu (shift (V c main_v57) (V c main_v58))) (V c main_arg7) :=
  (dat2 (F := Ideal) V c).arrAt_eq_of_cover 3 (mm (relu (shift (V c main_v57) (V c main_v58))) (V c main_arg7))
    (fun t _ => Region2.flushed_product_eq V c t) Region2.covered_product

/-- The embeddings output of region 2: the clamped, shifted activations themselves. -/
theorem region2_embeddings (c : Dev nD) :
    (dat2 (F := Ideal) V c).arrAt 4 cfg2.N = relu (shift (V c main_v57) (V c main_v58)) :=
  (dat2 (F := Ideal) V c).arrAt_eq_of_cover 4 (relu (shift (V c main_v57) (V c main_v58)))
    (fun t _ => Region2.flushed_embeddings_eq V c t) Region2.covered_embeddings

end Cert.KernelIdeal.RegionValue

end
-- ==== Proof.Region3.lean ====
/-
  The linear head as the kernel computes it: one grid point whose blocks are the whole arrays; the pooled
  64 x 64 features times the 64 x 2 head weights on the matrix unit into a zero accumulator, then the bias row
  added to every row: `shift (mm p W) b`.
-/
import proofs.«158824_j60885456388842_1_alg».proof.Proof.Gen.KernelIdeal.Frame
import proofs.«158824_j60885456388842_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Cert.Dense
open Idealize.ShloMosaic Idealize.ShloMosaic.TcCoe Idealize.ShloMosaic.ValueIdx Idealize.SL.Sem

variable (V : (c : Dev nD) → (b : Ref sig .tc) → Buf (Elt Ideal) ((c : Thread nD τ).loc b))

/-- The coordinates of the head product's operand indices: the left operand is read at (row, contracted index). -/
theorem head_lhs_0 (i : S64x2.Idx) (q : dot_S64x64_S64x2_S64x2_1_0_0_1_n_n.contr.Idx) :
    (dot_S64x64_S64x2_S64x2_1_0_0_1_n_n.lhsIdx i q 0).val = (i 0).val := by
  unfold DotDims.lhsIdx
  rw [dif_neg (show ¬(0 : Fin S64x64.rank) ∈ dot_S64x64_S64x2_S64x2_1_0_0_1_n_n.lhsBatch by decide), dif_pos (show (0 : Fin S64x64.rank) ∈ dot_S64x64_S64x2_S64x2_1_0_0_1_n_n.lhsNonContracting by decide)]
  rfl
theorem head_lhs_1 (i : S64x2.Idx) (q : dot_S64x64_S64x2_S64x2_1_0_0_1_n_n.contr.Idx) :
    (dot_S64x64_S64x2_S64x2_1_0_0_1_n_n.lhsIdx i q 1).val = (q ⟨0, by decide⟩).val :=
  dot_S64x64_S64x2_S64x2_1_0_0_1_n_n.lhsIdx_val_of_single rfl i q
/-- The right operand is read at (contracted index, column). -/
theorem head_rhs_0 (i : S64x2.Idx) (q : dot_S64x64_S64x2_S64x2_1_0_0_1_n_n.contr.Idx) :
    (dot_S64x64_S64x2_S64x2_1_0_0_1_n_n.rhsIdx i q 0).val = (q ⟨0, by decide⟩).val :=
  dot_S64x64_S64x2_S64x2_1_0_0_1_n_n.rhsIdx_val_of_single rfl i q
theorem head_rhs_1 (i : S64x2.Idx) (q : dot_S64x64_S64x2_S64x2_1_0_0_1_n_n.contr.Idx) :
    (dot_S64x64_S64x2_S64x2_1_0_0_1_n_n.rhsIdx i q 1).val = (i 1).val := by
  unfold DotDims.rhsIdx
  rw [dif_neg (show ¬(1 : Fin S64x2.rank) ∈ dot_S64x64_S64x2_S64x2_1_0_0_1_n_n.rhsBatch by decide), dif_pos (show (1 : Fin S64x2.rank) ∈ dot_S64x64_S64x2_S64x2_1_0_0_1_n_n.rhsNonContracting by decide)]
  rfl

/-- The body's value at an entry: the product into the zero accumulator is the sum over the inner index of the
    products (rounding the operands to the narrower format is the identity on extended reals), and the bias row is
    read at the entry's column. -/
theorem head_payload_apply (x0 : Vec Ideal S64x64 .f32) (x1 : Vec Ideal S64x2 .f32) (x2 : Vec Ideal S1x2 .f32) (p : Fin 64) (q : Fin 2) :
    k3_pay1 x0 x1 x2 (ix2 p q) = (∑ k : Fin 64, x0 (ix2 p k) * x1 (ix2 k q)) + x2 (ix2 (0 : Fin 1) q) := by
  unfold k3_pay1
  rw [addf_apply]
  congr 1
  · simp only [matmul]
    rw [Ideal.matmul_constant_zero_apply, ← Equiv.sum_comp (ValueIdx.contrEquiv1 dot_S64x64_S64x2_S64x2_1_0_0_1_n_n 64 rfl rfl).symm]
    refine Finset.sum_congr rfl fun k _ => ?_
    have hk := ValueIdx.contrEquiv1_symm_val dot_S64x64_S64x2_S64x2_1_0_0_1_n_n 64 rfl rfl k
    have el : dot_S64x64_S64x2_S64x2_1_0_0_1_n_n.lhsIdx (ix2 p q) ((ValueIdx.contrEquiv1 dot_S64x64_S64x2_S64x2_1_0_0_1_n_n 64 rfl rfl).symm k) = ix2 p k := funext fun d => Fin.ext (by
      match d with
      | ⟨0, _⟩ => exact head_lhs_0 _ _
      | ⟨1, _⟩ => exact (head_lhs_1 _ _).trans hk)
    have er : dot_S64x64_S64x2_S64x2_1_0_0_1_n_n.rhsIdx (ix2 p q) ((ValueIdx.contrEquiv1 dot_S64x64_S64x2_S64x2_1_0_0_1_n_n 64 rfl rfl).symm k) = ix2 k q := funext fun d => Fin.ext (by
      match d with
      | ⟨0, _⟩ => exact (head_rhs_0 _ _).trans hk
      | ⟨1, _⟩ => exact head_rhs_1 _ _)
    rw [el, er, truncf_apply, truncf_apply, shapeCast_self]
  · rw [shapeCast_self]
    exact broadcastTo_apply x2 broadcasts_S1x2_S64x2 (ix2 p q) (ix2 (0 : Fin 1) q) (fun a => match a with
      | ⟨0, _⟩ => by show 0 = if (1 : Nat) = 1 then 0 else _; rw [if_pos rfl]
      | ⟨1, _⟩ => by show q.val = if (2 : Nat) = 1 then 0 else _; rw [if_neg (by decide)]; rfl)

theorem zero_offsets : (![0, 0] : Fin 2 → Nat) = fun _ => 0 := funext fun a => by fin_cases a <;> rfl

/-- The body's value as the matrix functions of its three whole blocks. -/
theorem head_payload_eq (x0 : Vec Ideal S64x64 .f32) (x1 : Vec Ideal S64x2 .f32) (x2 : Vec Ideal S1x2 .f32) :
    k3_pay1 x0 x1 x2 = shift (r := 64) (c := 2) (mm (r := 64) (n := 64) (c := 2) x0 x1) x2 := by
  funext j
  obtain ⟨p, q, rfl⟩ : ∃ (p : Fin 64) (q : Fin 2), j = ix2 p q := ⟨j 0, j 1, eq_ix2 j⟩
  rw [head_payload_apply, shift_apply, mm_apply]

/-- At every grid point every window's block index is 0 on both axes. -/
theorem head_index_facts : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- The head as one function of the three arrays the region finds. -/
abbrev headOf (c : Dev nD) : S64x2.Idx → EReal :=
  shift (r := 64) (c := 2) (mm (r := 64) (n := 64) (c := 2) (V c main_v87) (V c main_arg9)) (V c main_v88)

/-- What the one point writes back is the whole of `headOf`: each input block is its whole array. -/
theorem head_flushed_eq (c : Dev nD) (t : Fin cfg3.N) :
    (dat3 (F := Ideal) V c).flushed 3 t = ((cfg3.win 3).blk t).view.read (Elt Ideal) (headOf V c) := by
  show (cfg3.win 3).cut (grid3.coords t) ((dat3 (F := Ideal) V c).after 3 t) = _
  rw [after3_3]
  unfold out3_3
  rw [View.canon_unit_zero zero_offsets]
  simp only [View.ld_unit_zero (S := S64x64) zero_offsets, View.ld_unit_zero (S := S64x2) zero_offsets, View.ld_unit_zero (S := S1x2) zero_offsets]
  obtain ⟨a0, a1, b0, b1, d0, d1, o0, o1⟩ := head_index_facts t
  -- each input block, read at an index, is its array at the same index: block index 0, the block the whole array
  have hp : (iblk3 V c 0 t : Vec Ideal S64x64 .f32) = (V c main_v87 : S64x64.Idx → EReal) := by
    funext y
    show V c main_v87 (((cfg3.win 0).blk t).view.emb y) = V c main_v87 y
    refine congrArg (V c main_v87) (funext fun a => Fin.ext ?_)
    match a with
    | ⟨0, _⟩ => show win3_0.index t (0 : Fin 2) * 64 + 1 * (y 0).val = (y 0).val; rw [a0]; omega
    | ⟨1, _⟩ => show win3_0.index t (1 : Fin 2) * 64 + 1 * (y 1).val = (y 1).val; rw [a1]; omega
  have hw : (iblk3 V c 1 t : Vec Ideal S64x2 .f32) = (V c main_arg9 : S64x2.Idx → EReal) := by
    funext y
    show V c main_arg9 (((cfg3.win 1).blk t).view.emb y) = V c main_arg9 y
    refine congrArg (V c main_arg9) (funext fun a => Fin.ext ?_)
    match a with
    | ⟨0, _⟩ => show win3_1.index t (0 : Fin 2) * 64 + 1 * (y 0).val = (y 0).val; rw [b0]; omega
    | ⟨1, _⟩ => show win3_1.index t (1 : Fin 2) * 2 + 1 * (y 1).val = (y 1).val; rw [b1]; omega
  have hb : (iblk3 V c 2 t : Vec Ideal S1x2 .f32) = (V c main_v88 : S1x2.Idx → EReal) := by
    funext y
    show V c main_v88 (((cfg3.win 2).blk t).view.emb y) = V c main_v88 y
    refine congrArg (V c main_v88) (funext fun a => Fin.ext ?_)
    match a with
    | ⟨0, _⟩ => show win3_2.index t (0 : Fin 2) * 1 + 1 * (y 0).val = (y 0).val; rw [d0]; omega
    | ⟨1, _⟩ => show win3_2.index t (1 : Fin 2) * 2 + 1 * (y 1).val = (y 1).val; rw [d1]; omega
  have hpay : k3_pay1 (iblk3 V c 0 t) (iblk3 V c 1 t) (iblk3 V c 2 t) = headOf V c :=
    (head_payload_eq (iblk3 V c 0 t) (iblk3 V c 1 t) (iblk3 V c 2 t)).trans (by
      show shift (mm (iblk3 V c 0 t : Vec Ideal S64x64 .f32) (iblk3 V c 1 t : Vec Ideal S64x2 .f32)) (iblk3 V c 2 t : Vec Ideal S1x2 .f32) = _
      rw [hp, hw, hb])
  rw [hpay]
  funext j
  show headOf V c j = headOf V c (((cfg3.win 3).blk t).view.emb j)
  refine congrArg (headOf V c) (funext fun a => Fin.ext ?_)
  match a with
  | ⟨0, _⟩ => show (j 0).val = win3_3.index t (0 : Fin 2) * 64 + 1 * (j 0).val; rw [o0]; omega
  | ⟨1, _⟩ => show (j 1).val = win3_3.index t (1 : Fin 2) * 2 + 1 * (j 1).val; rw [o1]; omega

/-- An index of the array is in point `t`'s block iff each coordinate is in the block's range on its axis. -/
theorem head_mem_blk (t : Fin cfg3.N) (i : S64x2.Idx) :
    i ∈ ((cfg3.win 3).blk t).view.set ↔ ∀ a : Fin 2, win3_3.index t a * S64x2.size a ≤ (i a).val ∧ (i a).val < win3_3.index t a * S64x2.size a + S64x2.size a := by
  show i ∈ ((View.whole main_v89).slice (win3_3.rect t)).set ↔ _
  rw [View.set_slice_whole, Rect.mem_set_unit]
  exact Iff.rfl

/-- The one grid point's block is the whole array, so it covers every index. -/
theorem head_cover (i : S64x2.Idx) :
    ∃ t : Fin cfg3.N, (cfg3.win 3).flush t = true ∧ i ∈ ((cfg3.win 3).blk t).view.set := by
  refine ⟨t3_0, flush3_3 t3_0, ?_⟩
  rw [head_mem_blk]
  obtain ⟨_, _, _, _, _, _, o0, o1⟩ := head_index_facts t3_0
  have h0 : (i 0).val < 64 := (i 0).isLt
  have h1 : (i 1).val < 2 := (i 1).isLt
  intro a
  match a with
  | ⟨0, _⟩ => show win3_3.index t3_0 (0 : Fin 2) * 64 ≤ (i 0).val ∧ (i 0).val < win3_3.index t3_0 (0 : Fin 2) * 64 + 64; rw [o0]; omega
  | ⟨1, _⟩ => show win3_3.index t3_0 (1 : Fin 2) * 2 ≤ (i 1).val ∧ (i 1).val < win3_3.index t3_0 (1 : Fin 2) * 2 + 2; rw [o1]; omega

/-- The array region 3 leaves in its output window. -/
theorem region3 (c : Dev nD) :
    (dat3 (F := Ideal) V c).arrAt 3 cfg3.N = shift (mm (V c main_v87) (V c main_arg9)) (V c main_v88) := by
  exact (dat3 (F := Ideal) V c).arrAt_eq_of_cover 3 (headOf V c) (fun t _ => head_flushed_eq V c t) head_cover

end Cert.KernelIdeal.RegionValue

end
-- ==== Proof.Stage.lean ====
/-
  The graph side of the network — everything that is not a dense layer — as functions of arrays, and the
  network's two results as compositions of these with the dense layers of Spec.lean.
  The edge list `ei` (2 x 800000 node indices) gives, with one self-loop per node appended, the source and
  destination of 900000 directed edges (`src`, `dst`). A node's degree is the number of edges arriving at it
  (`deg`: a scatter-add of ones by destination); an edge's weight is the product of the inverse square roots
  of its endpoints' degrees (`nrm`). One round of message passing (`mp`) gathers the transformed features
  at each edge's source, scales them by the edge's weight, and scatter-adds them at the edge's destination.
  An index is wrapped as the gather wraps it: a negative index counts from the end (`wrap`). Pooling
  (`pool`) sums node features per graph id and divides by the graph's node count, at least one.
  Both programs apply exactly these host operations; they differ only in how the dense layers between them
  are computed, so the bridge never opens a gather or a scatter: it carries each stage as one function.
-/
import proofs.«158824_j60885456388842_1_alg».proof.ReferenceIdeal
import proofs.«158824_j60885456388842_1_alg».proof.Proof.Gen.ReferenceIdeal
import proofs.«158824_j60885456388842_1_alg».proof.Proof.Spec

set_option maxRecDepth 16384

noncomputable section

namespace Cert.Stage

open Cert.ReferenceIdeal Cert.ReferenceIdeal.Gen Cert.Dense
open Idealize.ShloMosaic

abbrev Edges : Type := IVec S2x800000 32
abbrev Ends : Type := IVec S900000 32
abbrev Weights : Type := FVec Ideal S900000 .f32
abbrev Act : Type := FVec Ideal S100000x64 .f32
abbrev Vec64 : Type := FVec Ideal S64 .f32
abbrev Vec2 : Type := FVec Ideal S2 .f32
abbrev Sq64 : Type := FVec Ideal S64x64 .f32
abbrev Head : Type := FVec Ideal S64x2 .f32
abbrev Out : Type := FVec Ideal S64x2 .f32
abbrev Batch : Type := IVec S100000 32

/-- A 64-vector can be read as a one-row matrix, and a 2-vector too. -/
theorem row64 : S64.ShapeCasts S1x64 := by decide
theorem row2 : S2.ShapeCasts S1x2 := by decide

/-- The sources of the 900000 edges: row 0 of the edge list, then every node once (its self-loop). -/
def src (ei : Edges) : Ends :=
  concatenate S900000 0 [⟨S800000, (shapeCast _ (extractStridedSlice S1x800000 ![0, 0] ei slices_S2x800000_S1x800000_0_0) shapeCasts_S1x800000_S800000)⟩, ⟨S100000, (iotaInDim S100000 32 0)⟩] concatenates_S800000_S100000_S900000_d0

/-- The destinations: row 1 of the edge list, then every node once. -/
def dst (ei : Edges) : Ends :=
  concatenate S900000 0 [⟨S800000, (shapeCast _ (extractStridedSlice S1x800000 ![1, 0] ei slices_S2x800000_S1x800000_1_0) shapeCasts_S1x800000_S800000)⟩, ⟨S100000, (iotaInDim S100000 32 0)⟩] concatenates_S800000_S100000_S900000_d0

/-- An index as the gather reads it: a negative one counts from the end of the 100000 nodes. -/
def wrap (s : Ends) : Ends :=
  select (cmpi .slt s (broadcastInDim S900000 ![] bcast_S_S900000 (constantI S_ 32 0#32))) (addi s (broadcastInDim S900000 ![] bcast_S_S900000 (constantI S_ 32 100000#32))) s

/-- The inverse square root of every node's in-degree (self-loop included). -/
def isd (d : Ends) : FVec Ideal S100000 .f32 :=
  Host.rsqrt (F := Ideal) (Host.scatterAdd (F := Ideal) scatter_S100000_S900000x1_S900000_n_0_0_1 (broadcastInDim S100000 ![] bcast_S_S100000 (constant (F := Ideal) S_ .f32 0x00000000#32)) (broadcastInDim S900000x1 ![0] bcast_S900000_S900000x1_0 d) (broadcastInDim S900000 ![] bcast_S_S900000 (constant (F := Ideal) S_ .f32 0x3F800000#32)))

/-- The weight of every edge: the product of its endpoints' inverse square-root degrees. -/
def nrm (s d : Ends) : Weights :=
  mulf (F := Ideal) (Host.gather gather_S100000_S900000x1_S900000_n_0_n_n_0_1_1 (isd d) (broadcastInDim S900000x1 ![0] bcast_S900000_S900000x1_0 (wrap s))) (Host.gather gather_S100000_S900000x1_S900000_n_0_n_n_0_1_1 (isd d) (broadcastInDim S900000x1 ![0] bcast_S900000_S900000x1_0 (wrap d)))

/-- One round of message passing over the edges. -/
def mp (t : Act) (s d : Ends) (n : Weights) : Act :=
  Host.scatterAdd (F := Ideal) scatter_S100000x64_S900000x1_S900000x64_1_0_0_1 (broadcastInDim S100000x64 ![] bcast_S_S100000x64 (constant (F := Ideal) S_ .f32 0x00000000#32)) (broadcastInDim S900000x1 ![0] bcast_S900000_S900000x1_0 d) (mulf (F := Ideal) (Host.gather gather_S100000x64_S900000x1_S900000x64_1_0_n_n_0_1_164 t (broadcastInDim S900000x1 ![0] bcast_S900000_S900000x1_0 (wrap s))) (broadcastInDim S900000x64 ![0, 1] bcast_S900000x1_S900000x64_0_1 (broadcastInDim S900000x1 ![0] bcast_S900000_S900000x1_0 n)))

/-- Mean pooling of node features by graph id. -/
def pool (h : Act) (batch : Batch) : Sq64 :=
  Host.divf (F := Ideal) (Host.scatterAdd (F := Ideal) scatter_S64x64_S100000x1_S100000x64_1_0_0_1 (broadcastInDim S64x64 ![] bcast_S_S64x64 (constant (F := Ideal) S_ .f32 0x00000000#32)) (broadcastInDim S100000x1 ![0] bcast_S100000_S100000x1_0 batch) h) (broadcastInDim S64x64 ![0, 1] bcast_S64x1_S64x64_0_1 (broadcastInDim S64x1 ![0] bcast_S64_S64x1_0 (maximumf (F := Ideal) (Host.scatterAdd (F := Ideal) scatter_S64_S100000x1_S100000_n_0_0_1 (broadcastInDim S64 ![] bcast_S_S64 (constant (F := Ideal) S_ .f32 0x00000000#32)) (broadcastInDim S100000x1 ![0] bcast_S100000_S100000x1_0 batch) (broadcastInDim S100000 ![] bcast_S_S100000 (constant (F := Ideal) S_ .f32 0x3F800000#32))) (broadcastInDim S64 ![] bcast_S_S64 (constant (F := Ideal) S_ .f32 0x3F800000#32)))))

/-- Layer 1: transform, pass messages, add the bias, clamp. -/
def layer1 (x : Act) (ei : Edges) (W1 : Sq64) (b1 : Vec64) : Act :=
  relu (r := 100000) (c := 64) (shift (r := 100000) (c := 64) (mp (mm (r := 100000) (n := 64) (c := 64) x W1) (src ei) (dst ei) (nrm (src ei) (dst ei))) (shapeCast S1x64 b1 row64))

/-- The embeddings: layer 2 applied to layer 1's activations. -/
def embeddings (x : Act) (ei : Edges) (W1 : Sq64) (b1 : Vec64) (W2 : Sq64) (b2 : Vec64) : Act :=
  relu (r := 100000) (c := 64) (shift (r := 100000) (c := 64) (mp (mm (r := 100000) (n := 64) (c := 64) (layer1 x ei W1 b1) W2) (src ei) (dst ei) (nrm (src ei) (dst ei))) (shapeCast S1x64 b2 row64))

/-- The class scores: layer 3 (no clamp) on the embeddings, mean-pooled per graph, through the linear head. -/
def scores (e : Act) (ei : Edges) (batch : Batch) (W3 : Sq64) (b3 : Vec64) (Wl : Head) (bl : Vec2) : Out :=
  shift (r := 64) (c := 2) (mm (r := 64) (n := 64) (c := 2) (pool (shift (r := 100000) (c := 64) (mp (mm (r := 100000) (n := 64) (c := 64) e W3) (src ei) (dst ei) (nrm (src ei) (dst ei))) (shapeCast S1x64 b3 row64)) batch) Wl) (shapeCast S1x2 bl row2)

end Cert.Stage

end
-- ==== Proof.Host0.lean ====
/-
  The host operations before the first pallas_call, read for ANY contents `W` of the buffers they start from:
  they split the edge list into the edges' sources and destinations with the self-loops appended, count degrees,
  form every edge's weight, and make the zero row that the first dense layer takes as its bias.
-/
import proofs.«158824_j60885456388842_1_alg».proof.Proof.Gen.KernelIdeal.Launch
import proofs.«158824_j60885456388842_1_alg».proof.Proof.Stage
import Idealize.ShloMosaic.Lib.StableHlo.Run

set_option maxRecDepth 16384

noncomputable section

namespace Cert.KernelIdeal.Stretch

open Cert.KernelIdeal Cert.KernelIdeal.Gen Cert.Stage
open Idealize.ShloMosaic Idealize.ShloMosaic.TcCoe Idealize.SL.Sem Idealize.ShloMosaic.StableHlo

variable (W : Valuation τ sig (Elt Ideal))

/-- The edges' sources. -/
theorem src0 : StableHlo.after (hostOps0 (F := Ideal)) W (Proc.devRef .tc main_v3) = src (W (Proc.devRef .tc main_arg1)) := by
  after_results_simp
  rfl

/-- The edges' destinations. -/
theorem dst0 : StableHlo.after (hostOps0 (F := Ideal)) W (Proc.devRef .tc main_v6) = dst (W (Proc.devRef .tc main_arg1)) := by
  after_results_simp
  rfl

/-- The edges' weights. -/
theorem nrm0 : StableHlo.after (hostOps0 (F := Ideal)) W (Proc.devRef .tc main_v26)
    = nrm (src (W (Proc.devRef .tc main_arg1))) (dst (W (Proc.devRef .tc main_arg1))) := by
  after_results_simp
  rfl

/-- The first layer's bias row is the zero vector as one row. -/
theorem zero0 : StableHlo.after (hostOps0 (F := Ideal)) W (Proc.devRef .tc main_v28)
    = shapeCast S1x64 (broadcastInDim S64 ![] bcast_S_S64 (constant (F := Ideal) S_ .f32 0x00000000#32)) row64 := by
  after_results_simp
  rfl

theorem keep0_arg0 : StableHlo.after (hostOps0 (F := Ideal)) W (Proc.devRef .tc main_arg0) = W (Proc.devRef .tc main_arg0) := by
  after_results_simp

theorem keep0_arg2 : StableHlo.after (hostOps0 (F := Ideal)) W (Proc.devRef .tc main_arg2) = W (Proc.devRef .tc main_arg2) := by
  after_results_simp

theorem keep0_arg3 : StableHlo.after (hostOps0 (F := Ideal)) W (Proc.devRef .tc main_arg3) = W (Proc.devRef .tc main_arg3) := by
  after_results_simp

theorem keep0_arg4 : StableHlo.after (hostOps0 (F := Ideal)) W (Proc.devRef .tc main_arg4) = W (Proc.devRef .tc main_arg4) := by
  after_results_simp

theorem keep0_arg5 : StableHlo.after (hostOps0 (F := Ideal)) W (Proc.devRef .tc main_arg5) = W (Proc.devRef .tc main_arg5) := by
  after_results_simp

theorem keep0_arg6 : StableHlo.after (hostOps0 (F := Ideal)) W (Proc.devRef .tc main_arg6) = W (Proc.devRef .tc main_arg6) := by
  after_results_simp

theorem keep0_arg7 : StableHlo.after (hostOps0 (F := Ideal)) W (Proc.devRef .tc main_arg7) = W (Proc.devRef .tc main_arg7) := by
  after_results_simp

theorem keep0_arg8 : StableHlo.after (hostOps0 (F := Ideal)) W (Proc.devRef .tc main_arg8) = W (Proc.devRef .tc main_arg8) := by
  after_results_simp

theorem keep0_arg9 : StableHlo.after (hostOps0 (F := Ideal)) W (Proc.devRef .tc main_arg9) = W (Proc.devRef .tc main_arg9) := by
  after_results_simp

theorem keep0_arg10 : StableHlo.after (hostOps0 (F := Ideal)) W (Proc.devRef .tc main_arg10) = W (Proc.devRef .tc main_arg10) := by
  after_results_simp

end Cert.KernelIdeal.Stretch

end
-- ==== Proof.Host1.lean ====
/-
  The host operations between the first and second pallas_calls, read for ANY contents `W` of the buffers they
  start from: they pass layer 1's transformed features along the edges (one round of `mp` over the arrays the
  first stretch left) and reshape the bias vector to one row. Nothing else that a later segment reads is written.
-/
import proofs.«158824_j60885456388842_1_alg».proof.Proof.Gen.KernelIdeal.Launch
import proofs.«158824_j60885456388842_1_alg».proof.Proof.Stage
import Idealize.ShloMosaic.Lib.StableHlo.Run

set_option maxRecDepth 16384

noncomputable section

namespace Cert.KernelIdeal.Stretch

open Cert.KernelIdeal Cert.KernelIdeal.Gen Cert.Stage
open Idealize.ShloMosaic Idealize.ShloMosaic.TcCoe Idealize.SL.Sem Idealize.ShloMosaic.StableHlo

variable (W : Valuation τ sig (Elt Ideal))

/-- The aggregated messages: `mp` of the transformed features by the edges' ends and weights. -/
theorem agg1 : StableHlo.after (hostOps1 (F := Ideal)) W (Proc.devRef .tc main_v42)
    = mp (W (Proc.devRef .tc main_v29)) (W (Proc.devRef .tc main_v3)) (W (Proc.devRef .tc main_v6)) (W (Proc.devRef .tc main_v26)) := by
  after_results_simp
  rfl

/-- Layer 2's bias as one row. -/
theorem bias1 : StableHlo.after (hostOps1 (F := Ideal)) W (Proc.devRef .tc main_v43)
    = shapeCast S1x64 (W (Proc.devRef .tc main_arg4)) row64 := by
  after_results_simp
  rfl

theorem keep1_v3 : StableHlo.after (hostOps1 (F := Ideal)) W (Proc.devRef .tc main_v3) = W (Proc.devRef .tc main_v3) := by
  after_results_simp

theorem keep1_v6 : StableHlo.after (hostOps1 (F := Ideal)) W (Proc.devRef .tc main_v6) = W (Proc.devRef .tc main_v6) := by
  after_results_simp

theorem keep1_v26 : StableHlo.after (hostOps1 (F := Ideal)) W (Proc.devRef .tc main_v26) = W (Proc.devRef .tc main_v26) := by
  after_results_simp

theorem keep1_arg2 : StableHlo.after (hostOps1 (F := Ideal)) W (Proc.devRef .tc main_arg2) = W (Proc.devRef .tc main_arg2) := by
  after_results_simp

theorem keep1_arg5 : StableHlo.after (hostOps1 (F := Ideal)) W (Proc.devRef .tc main_arg5) = W (Proc.devRef .tc main_arg5) := by
  after_results_simp

theorem keep1_arg6 : StableHlo.after (hostOps1 (F := Ideal)) W (Proc.devRef .tc main_arg6) = W (Proc.devRef .tc main_arg6) := by
  after_results_simp

theorem keep1_arg7 : StableHlo.after (hostOps1 (F := Ideal)) W (Proc.devRef .tc main_arg7) = W (Proc.devRef .tc main_arg7) := by
  after_results_simp

theorem keep1_arg8 : StableHlo.after (hostOps1 (F := Ideal)) W (Proc.devRef .tc main_arg8) = W (Proc.devRef .tc main_arg8) := by
  after_results_simp

theorem keep1_arg9 : StableHlo.after (hostOps1 (F := Ideal)) W (Proc.devRef .tc main_arg9) = W (Proc.devRef .tc main_arg9) := by
  after_results_simp

theorem keep1_arg10 : StableHlo.after (hostOps1 (F := Ideal)) W (Proc.devRef .tc main_arg10) = W (Proc.devRef .tc main_arg10) := by
  after_results_simp

end Cert.KernelIdeal.Stretch

end
-- ==== Proof.Host2.lean ====
/-
  The host operations between the second and third pallas_calls, read for ANY contents `W`: one round of message
  passing over layer 2's transformed features, and layer 3's bias vector as one row.
-/
import proofs.«158824_j60885456388842_1_alg».proof.Proof.Gen.KernelIdeal.Launch
import proofs.«158824_j60885456388842_1_alg».proof.Proof.Stage
import Idealize.ShloMosaic.Lib.StableHlo.Run

set_option maxRecDepth 16384

noncomputable section

namespace Cert.KernelIdeal.Stretch

open Cert.KernelIdeal Cert.KernelIdeal.Gen Cert.Stage
open Idealize.ShloMosaic Idealize.ShloMosaic.TcCoe Idealize.SL.Sem Idealize.ShloMosaic.StableHlo

variable (W : Valuation τ sig (Elt Ideal))

/-- The aggregated messages of layer 2. -/
theorem agg2 : StableHlo.after (hostOps2 (F := Ideal)) W (Proc.devRef .tc main_v57)
    = mp (W (Proc.devRef .tc main_v44)) (W (Proc.devRef .tc main_v3)) (W (Proc.devRef .tc main_v6)) (W (Proc.devRef .tc main_v26)) := by
  after_results_simp
  rfl

/-- Layer 3's bias as one row. -/
theorem bias2 : StableHlo.after (hostOps2 (F := Ideal)) W (Proc.devRef .tc main_v58)
    = shapeCast S1x64 (W (Proc.devRef .tc main_arg6)) row64 := by
  after_results_simp
  rfl

theorem keep2_v3 : StableHlo.after (hostOps2 (F := Ideal)) W (Proc.devRef .tc main_v3) = W (Proc.devRef .tc main_v3) := by
  after_results_simp

theorem keep2_v6 : StableHlo.after (hostOps2 (F := Ideal)) W (Proc.devRef .tc main_v6) = W (Proc.devRef .tc main_v6) := by
  after_results_simp

theorem keep2_v26 : StableHlo.after (hostOps2 (F := Ideal)) W (Proc.devRef .tc main_v26) = W (Proc.devRef .tc main_v26) := by
  after_results_simp

theorem keep2_arg2 : StableHlo.after (hostOps2 (F := Ideal)) W (Proc.devRef .tc main_arg2) = W (Proc.devRef .tc main_arg2) := by
  after_results_simp

theorem keep2_arg7 : StableHlo.after (hostOps2 (F := Ideal)) W (Proc.devRef .tc main_arg7) = W (Proc.devRef .tc main_arg7) := by
  after_results_simp

theorem keep2_arg8 : StableHlo.after (hostOps2 (F := Ideal)) W (Proc.devRef .tc main_arg8) = W (Proc.devRef .tc main_arg8) := by
  after_results_simp

theorem keep2_arg9 : StableHlo.after (hostOps2 (F := Ideal)) W (Proc.devRef .tc main_arg9) = W (Proc.devRef .tc main_arg9) := by
  after_results_simp

theorem keep2_arg10 : StableHlo.after (hostOps2 (F := Ideal)) W (Proc.devRef .tc main_arg10) = W (Proc.devRef .tc main_arg10) := by
  after_results_simp

end Cert.KernelIdeal.Stretch

end
-- ==== Proof.Host3.lean ====
/-
  The host operations between the third and fourth pallas_calls, read for ANY contents `W`: the last round of
  message passing, the last layer's bias added to every row (in the host's spelling: the vector broadcast to a row
  and to every row), mean pooling by graph id, and the head's bias vector as one row.
-/
import proofs.«158824_j60885456388842_1_alg».proof.Proof.Gen.KernelIdeal.Launch
import proofs.«158824_j60885456388842_1_alg».proof.Proof.Stage
import Idealize.ShloMosaic.Lib.StableHlo.Run

set_option maxRecDepth 16384

noncomputable section

namespace Cert.KernelIdeal.Stretch

open Cert.KernelIdeal Cert.KernelIdeal.Gen Cert.Stage
open Idealize.ShloMosaic Idealize.ShloMosaic.TcCoe Idealize.SL.Sem Idealize.ShloMosaic.StableHlo

variable (W : Valuation τ sig (Elt Ideal))

/-- The pooled features the head reads. -/
theorem pooled3 : StableHlo.after (hostOps3 (F := Ideal)) W (Proc.devRef .tc main_v87)
    = pool (addf (F := Ideal) (mp (W (Proc.devRef .tc main_v59_0)) (W (Proc.devRef .tc main_v3)) (W (Proc.devRef .tc main_v6)) (W (Proc.devRef .tc main_v26)))
        (broadcastInDim S100000x64 ![0, 1] bcast_S1x64_S100000x64_0_1 (broadcastInDim S1x64 ![1] bcast_S64_S1x64_1 (W (Proc.devRef .tc main_arg8)))))
        (W (Proc.devRef .tc main_arg2)) := by
  after_results_simp
  rfl

/-- The head's bias as one row. -/
theorem bias3 : StableHlo.after (hostOps3 (F := Ideal)) W (Proc.devRef .tc main_v88)
    = shapeCast S1x2 (W (Proc.devRef .tc main_arg10)) row2 := by
  after_results_simp
  rfl

theorem keep3_v59_1 : StableHlo.after (hostOps3 (F := Ideal)) W (Proc.devRef .tc main_v59_1) = W (Proc.devRef .tc main_v59_1) := by
  after_results_simp

theorem keep3_arg9 : StableHlo.after (hostOps3 (F := Ideal)) W (Proc.devRef .tc main_arg9) = W (Proc.devRef .tc main_arg9) := by
  after_results_simp

end Cert.KernelIdeal.Stretch

end
-- ==== Proof.DenseRef.lean ====
/-
  The reference's spelling of the dense layers, identified with the plain matrix functions. On the host a layer
  is written with whole-array operations: the bias vector is broadcast to a row and then to every row and added;
  the clamp is a maximum against the zero splat; the product is a `dot_general` contracting the inner axis.
  Read at an index each is the matrix function of the same name: a broadcast reads its operand at the column, the
  zero splat is the extended real 0, and a host `dot_general` at the ideal values is the sum over the contracted
  index of the products. The broadcast and reshape side conditions are propositions, so each lemma takes them as
  arbitrary proofs and applies to either program's spelling.
-/
import proofs.«158824_j60885456388842_1_alg».proof.ReferenceIdeal
import proofs.«158824_j60885456388842_1_alg».proof.Proof.Gen.ReferenceIdeal
import proofs.«158824_j60885456388842_1_alg».proof.Proof.Gen.ReferenceIdeal.Read
import proofs.«158824_j60885456388842_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Dense.Ref

open Cert.Dense
open Cert.ReferenceIdeal (S100000x64 S64x64 S64 S1x64 S_ S64x2 S2 S1x2
  dot_S100000x64_S64x64_S100000x64_1_0_0_1_n_n dot_S64x64_S64x2_S64x2_1_0_0_1_n_n)
open Idealize.ShloMosaic Idealize.ShloMosaic.ValueIdx

/-- A host `dot_general` of 100000 x 64 activations with 64 x 64 weights is their matrix product. -/
theorem dot_rows (x : FVec Ideal S100000x64 .f32) (W : FVec Ideal S64x64 .f32) :
    Host.dotGeneral (F := Ideal) dot_S100000x64_S64x64_S100000x64_1_0_0_1_n_n none x W = mm (r := 100000) (n := 64) (c := 64) x W := by
  funext i
  obtain ⟨p, q, rfl⟩ : ∃ (p : Fin 100000) (q : Fin 64), i = ix2 p q := ⟨i 0, i 1, eq_ix2 i⟩
  rw [mm_apply]
  -- the host product at an entry is the sum over the contracted index; its two index functions are (p, k) and (k, q)
  refine (Cert.ReferenceIdeal.Read.val_main_v27_apply x W (ix2 p q)).trans ?_
  refine Finset.sum_congr rfl fun k _ => ?_
  have el : Cert.ReferenceIdeal.Read.lidx_main_v27 (ix2 p q) k = ix2 p k :=
    funext fun a => Fin.ext (by match a with | ⟨0, _⟩ => rfl | ⟨1, _⟩ => rfl)
  have er : Cert.ReferenceIdeal.Read.ridx_main_v27 (ix2 p q) k = ix2 k q :=
    funext fun a => Fin.ext (by match a with | ⟨0, _⟩ => rfl | ⟨1, _⟩ => rfl)
  rw [el, er]

/-- The head's host `dot_general`, 64 x 64 times 64 x 2, is the matrix product. -/
theorem dot_head (p : FVec Ideal S64x64 .f32) (W : FVec Ideal S64x2 .f32) :
    Host.dotGeneral (F := Ideal) dot_S64x64_S64x2_S64x2_1_0_0_1_n_n none p W = mm (r := 64) (n := 64) (c := 2) p W := by
  funext i
  obtain ⟨a, q, rfl⟩ : ∃ (a : Fin 64) (q : Fin 2), i = ix2 a q := ⟨i 0, i 1, eq_ix2 i⟩
  rw [mm_apply]
  simp only [Host.dotGeneral]
  rw [Ideal.dotGeneral_apply, ← Equiv.sum_comp (ValueIdx.contrEquiv1 dot_S64x64_S64x2_S64x2_1_0_0_1_n_n 64 rfl rfl).symm]
  refine Finset.sum_congr rfl fun k _ => ?_
  have hk := ValueIdx.contrEquiv1_symm_val dot_S64x64_S64x2_S64x2_1_0_0_1_n_n 64 rfl rfl k
  have el : dot_S64x64_S64x2_S64x2_1_0_0_1_n_n.lhsIdx (ix2 a q) ((ValueIdx.contrEquiv1 dot_S64x64_S64x2_S64x2_1_0_0_1_n_n 64 rfl rfl).symm k) = ix2 a k := funext fun d => Fin.ext (by
    match d with
    | ⟨0, _⟩ => exact Cert.ReferenceIdeal.Read.lhs_main_v92_0 _ _
    | ⟨1, _⟩ => exact (Cert.ReferenceIdeal.Read.lhs_main_v92_1 _ _).trans hk)
  have er : dot_S64x64_S64x2_S64x2_1_0_0_1_n_n.rhsIdx (ix2 a q) ((ValueIdx.contrEquiv1 dot_S64x64_S64x2_S64x2_1_0_0_1_n_n 64 rfl rfl).symm k) = ix2 k q := funext fun d => Fin.ext (by
    match d with
    | ⟨0, _⟩ => exact (Cert.ReferenceIdeal.Read.rhs_main_v92_0 _ _).trans hk
    | ⟨1, _⟩ => exact Cert.ReferenceIdeal.Read.rhs_main_v92_1 _ _)
  rw [el, er]

/-- Adding a bias vector broadcast to every row is `shift` by the vector reshaped to one row. -/
theorem bias_rows (x : FVec Ideal S100000x64 .f32) (b : FVec Ideal S64 .f32)
    (h1 : S64.BroadcastsInDim S1x64 (![1] : Fin 1 → Fin S1x64.rank))
    (h2 : S1x64.BroadcastsInDim S100000x64 (![0, 1] : Fin 2 → Fin S100000x64.rank)) (hs : S64.ShapeCasts S1x64) :
    addf x (broadcastInDim S100000x64 ![0, 1] h2 (broadcastInDim S1x64 ![1] h1 b))
      = shift (r := 100000) (c := 64) x (shapeCast S1x64 b hs) := by
  funext i
  obtain ⟨p, q, rfl⟩ : ∃ (p : Fin 100000) (q : Fin 64), i = ix2 p q := ⟨i 0, i 1, eq_ix2 i⟩
  rw [shift_apply, addf_apply]
  congr 1
  -- the outer broadcast reads its operand at (0, q); the inner one reads the vector at q; so does the reshape
  refine (broadcastInDim_apply ![0, 1] h2 _ (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])).trans ?_
  refine (broadcastInDim_apply ![1] h1 b (ix2 (0 : Fin 1) q) (ix1 q) (fun a => match a with
    | ⟨0, _⟩ => by show q.val = if (64 : Nat) = 1 then 0 else q.val; rw [if_neg (by decide)])).trans ?_
  exact (shapeCast_a_1a_apply b hs (0 : Fin 1) q).symm

/-- The same for the head's 64 x 2 result and its 2-vector bias. -/
theorem bias_head (y : FVec Ideal S64x2 .f32) (b : FVec Ideal S2 .f32)
    (h1 : S2.BroadcastsInDim S1x2 (![1] : Fin 1 → Fin S1x2.rank))
    (h2 : S1x2.BroadcastsInDim S64x2 (![0, 1] : Fin 2 → Fin S64x2.rank)) (hs : S2.ShapeCasts S1x2) :
    addf y (broadcastInDim S64x2 ![0, 1] h2 (broadcastInDim S1x2 ![1] h1 b))
      = shift (r := 64) (c := 2) y (shapeCast S1x2 b hs) := by
  funext i
  obtain ⟨p, q, rfl⟩ : ∃ (p : Fin 64) (q : Fin 2), i = ix2 p q := ⟨i 0, i 1, eq_ix2 i⟩
  rw [shift_apply, addf_apply]
  congr 1
  refine (broadcastInDim_apply ![0, 1] h2 _ (ix2 p q) (ix2 (0 : Fin 1) q) (fun a => match a with
    | ⟨0, _⟩ => by show 0 = if (1 : Nat) = 1 then 0 else p.val; rw [if_pos rfl]
    | ⟨1, _⟩ => by show q.val = if (2 : Nat) = 1 then 0 else q.val; rw [if_neg (by decide)])).trans ?_
  refine (broadcastInDim_apply ![1] h1 b (ix2 (0 : Fin 1) q) (ix1 q) (fun a => match a with
    | ⟨0, _⟩ => by show q.val = if (2 : Nat) = 1 then 0 else q.val; rw [if_neg (by decide)])).trans ?_
  exact (shapeCast_a_1a_apply b hs (0 : Fin 1) q).symm

/-- The maximum against the zero splat is the clamp at zero. -/
theorem relu_rows (y : FVec Ideal S100000x64 .f32) (h0 : S_.BroadcastsInDim S100000x64 (![] : Fin 0 → Fin S100000x64.rank)) :
    maximumf y (broadcastInDim S100000x64 ![] h0 (constant (F := Ideal) S_ .f32 0x00000000#32)) = relu (r := 100000) (c := 64) y := by
  funext i
  rw [relu_apply, maximumf_apply]
  congr 1
  -- the splat reads the scalar, which is the zero word, the extended real 0
  refine (broadcastInDim_apply ![] h0 _ i ix0 (fun a => a.elim0)).trans ?_
  rw [constant_apply]
  exact Ideal.ofBits_zero_f32

/-- The zero vector reshaped to one row is zero at every entry. -/
theorem zero_row (h0 : S_.BroadcastsInDim S64 (![] : Fin 0 → Fin S64.rank)) (hs : S64.ShapeCasts S1x64) (j : S1x64.Idx) :
    (shapeCast S1x64 (broadcastInDim S64 ![] h0 (constant (F := Ideal) S_ .f32 0x00000000#32)) hs : FVec Ideal S1x64 .f32) j = 0 := by
  obtain ⟨u, q, rfl⟩ : ∃ (u : Fin 1) (q : Fin 64), j = ix2 u q := ⟨j 0, j 1, eq_ix2 j⟩
  refine (shapeCast_a_1a_apply _ hs u q).trans ?_
  refine (broadcastInDim_apply ![] h0 _ (ix1 q) ix0 (fun a => a.elim0)).trans ?_
  rw [constant_apply]
  exact Ideal.ofBits_zero_f32

end Cert.Dense.Ref

end
-- ==== Proof.Fold.lean ====
/-
  What the kernel program computes: the contents of its two result buffers at the end of the fold `W0 … W8` of
  the generated frame, as the stage compositions of Stage.lean. Each pallas_call's output array is its dense
  layer of the arrays it found (the region-value lemmas); each stretch of host operations is a stage function of
  the arrays it found (the stretch lemmas, stated for any contents); and an array that a segment does not write
  is read back through the fold to where it was made. Composing these from the launch memory forward gives the
  embeddings at the third call's second output and the class scores at the fourth call's output.
-/
import proofs.«158824_j60885456388842_1_alg».proof.Proof.Gen.KernelIdeal.Frame
import proofs.«158824_j60885456388842_1_alg».proof.Proof.Region0
import proofs.«158824_j60885456388842_1_alg».proof.Proof.Region1
import proofs.«158824_j60885456388842_1_alg».proof.Proof.Region2
import proofs.«158824_j60885456388842_1_alg».proof.Proof.Region3
import proofs.«158824_j60885456388842_1_alg».proof.Proof.Host0
import proofs.«158824_j60885456388842_1_alg».proof.Proof.Host1
import proofs.«158824_j60885456388842_1_alg».proof.Proof.Host2
import proofs.«158824_j60885456388842_1_alg».proof.Proof.Host3
import proofs.«158824_j60885456388842_1_alg».proof.Proof.Stage
import proofs.«158824_j60885456388842_1_alg».proof.Proof.DenseRef

set_option maxRecDepth 16384

noncomputable section

namespace Cert.KernelIdeal.FoldValue

open Cert.KernelIdeal Cert.KernelIdeal.Gen Cert.KernelIdeal.RegionValue Cert.KernelIdeal.Stretch Cert.Stage Cert.Dense Cert.Dense.Ref
open Idealize.ShloMosaic Idealize.ShloMosaic.TcCoe Idealize.SL.Sem

variable (m : (ℓ : Loc nD τ sig) → Buf (Elt Ideal) ℓ) (ρ : Dev nD → PrngReg) (c : Dev nD)

/-! ## Arrays carried through the fold -/

/-- The edges' sources are still in place at boundary 2. -/
theorem src_at2 : W2 m ρ c (Proc.devRef .tc main_v3) = src (m ((c : Thread nD τ).loc main_arg1)) :=
  (W2_of_ne m ρ c main_v3 (by decide)).trans (src0 (W0 m ρ c))
/-- The edges' destinations are still in place at boundary 2. -/
theorem dst_at2 : W2 m ρ c (Proc.devRef .tc main_v6) = dst (m ((c : Thread nD τ).loc main_arg1)) :=
  (W2_of_ne m ρ c main_v6 (by decide)).trans (dst0 (W0 m ρ c))
/-- The edges' weights are still in place at boundary 2. -/
theorem nrm_at2 : W2 m ρ c (Proc.devRef .tc main_v26) = nrm (src (m ((c : Thread nD τ).loc main_arg1))) (dst (m ((c : Thread nD τ).loc main_arg1))) :=
  (W2_of_ne m ρ c main_v26 (by decide)).trans (nrm0 (W0 m ρ c))
/-- The edges' sources are still in place at boundary 4. -/
theorem src_at4 : W4 m ρ c (Proc.devRef .tc main_v3) = src (m ((c : Thread nD τ).loc main_arg1)) :=
  (W4_of_ne m ρ c main_v3 (by decide)).trans ((keep1_v3 (W2 m ρ c)).trans ((W2_of_ne m ρ c main_v3 (by decide)).trans (src0 (W0 m ρ c))))
/-- The edges' destinations are still in place at boundary 4. -/
theorem dst_at4 : W4 m ρ c (Proc.devRef .tc main_v6) = dst (m ((c : Thread nD τ).loc main_arg1)) :=
  (W4_of_ne m ρ c main_v6 (by decide)).trans ((keep1_v6 (W2 m ρ c)).trans ((W2_of_ne m ρ c main_v6 (by decide)).trans (dst0 (W0 m ρ c))))
/-- The edges' weights are still in place at boundary 4. -/
theorem nrm_at4 : W4 m ρ c (Proc.devRef .tc main_v26) = nrm (src (m ((c : Thread nD τ).loc main_arg1))) (dst (m ((c : Thread nD τ).loc main_arg1))) :=
  (W4_of_ne m ρ c main_v26 (by decide)).trans ((keep1_v26 (W2 m ρ c)).trans ((W2_of_ne m ρ c main_v26 (by decide)).trans (nrm0 (W0 m ρ c))))
/-- The edges' sources are still in place at boundary 6. -/
theorem src_at6 : W6 m ρ c (Proc.devRef .tc main_v3) = src (m ((c : Thread nD τ).loc main_arg1)) :=
  (W6_of_ne m ρ c main_v3 (by decide)).trans ((keep2_v3 (W4 m ρ c)).trans ((W4_of_ne m ρ c main_v3 (by decide)).trans ((keep1_v3 (W2 m ρ c)).trans ((W2_of_ne m ρ c main_v3 (by decide)).trans (src0 (W0 m ρ c))))))
/-- The edges' destinations are still in place at boundary 6. -/
theorem dst_at6 : W6 m ρ c (Proc.devRef .tc main_v6) = dst (m ((c : Thread nD τ).loc main_arg1)) :=
  (W6_of_ne m ρ c main_v6 (by decide)).trans ((keep2_v6 (W4 m ρ c)).trans ((W4_of_ne m ρ c main_v6 (by decide)).trans ((keep1_v6 (W2 m ρ c)).trans ((W2_of_ne m ρ c main_v6 (by decide)).trans (dst0 (W0 m ρ c))))))
/-- The edges' weights are still in place at boundary 6. -/
theorem nrm_at6 : W6 m ρ c (Proc.devRef .tc main_v26) = nrm (src (m ((c : Thread nD τ).loc main_arg1))) (dst (m ((c : Thread nD τ).loc main_arg1))) :=
  (W6_of_ne m ρ c main_v26 (by decide)).trans ((keep2_v26 (W4 m ρ c)).trans ((W4_of_ne m ρ c main_v26 (by decide)).trans ((keep1_v26 (W2 m ρ c)).trans ((W2_of_ne m ρ c main_v26 (by decide)).trans (nrm0 (W0 m ρ c))))))
/-- Argument 0 is as launched at boundary 1, where it is read. -/
theorem arg0_at1 : W1 m ρ c (Proc.devRef .tc main_arg0) = (m ((c : Thread nD τ).loc main_arg0)) :=
  keep0_arg0 (W0 m ρ c)
/-- Argument 3 is as launched at boundary 1, where it is read. -/
theorem arg3_at1 : W1 m ρ c (Proc.devRef .tc main_arg3) = (m ((c : Thread nD τ).loc main_arg3)) :=
  keep0_arg3 (W0 m ρ c)
/-- Argument 4 is as launched at boundary 2, where it is read. -/
theorem arg4_at2 : W2 m ρ c (Proc.devRef .tc main_arg4) = (m ((c : Thread nD τ).loc main_arg4)) :=
  (W2_of_ne m ρ c main_arg4 (by decide)).trans (keep0_arg4 (W0 m ρ c))
/-- Argument 5 is as launched at boundary 3, where it is read. -/
theorem arg5_at3 : W3 m ρ c (Proc.devRef .tc main_arg5) = (m ((c : Thread nD τ).loc main_arg5)) :=
  (keep1_arg5 (W2 m ρ c)).trans ((W2_of_ne m ρ c main_arg5 (by decide)).trans (keep0_arg5 (W0 m ρ c)))
/-- Argument 6 is as launched at boundary 4, where it is read. -/
theorem arg6_at4 : W4 m ρ c (Proc.devRef .tc main_arg6) = (m ((c : Thread nD τ).loc main_arg6)) :=
  (W4_of_ne m ρ c main_arg6 (by decide)).trans ((keep1_arg6 (W2 m ρ c)).trans ((W2_of_ne m ρ c main_arg6 (by decide)).trans (keep0_arg6 (W0 m ρ c))))
/-- Argument 7 is as launched at boundary 5, where it is read. -/
theorem arg7_at5 : W5 m ρ c (Proc.devRef .tc main_arg7) = (m ((c : Thread nD τ).loc main_arg7)) :=
  (keep2_arg7 (W4 m ρ c)).trans ((W4_of_ne m ρ c main_arg7 (by decide)).trans ((keep1_arg7 (W2 m ρ c)).trans ((W2_of_ne m ρ c main_arg7 (by decide)).trans (keep0_arg7 (W0 m ρ c)))))
/-- Argument 8 is as launched at boundary 6, where it is read. -/
theorem arg8_at6 : W6 m ρ c (Proc.devRef .tc main_arg8) = (m ((c : Thread nD τ).loc main_arg8)) :=
  (W6_of_ne m ρ c main_arg8 (by decide)).trans ((keep2_arg8 (W4 m ρ c)).trans ((W4_of_ne m ρ c main_arg8 (by decide)).trans ((keep1_arg8 (W2 m ρ c)).trans ((W2_of_ne m ρ c main_arg8 (by decide)).trans (keep0_arg8 (W0 m ρ c))))))
/-- Argument 2 is as launched at boundary 6, where it is read. -/
theorem arg2_at6 : W6 m ρ c (Proc.devRef .tc main_arg2) = (m ((c : Thread nD τ).loc main_arg2)) :=
  (W6_of_ne m ρ c main_arg2 (by decide)).trans ((keep2_arg2 (W4 m ρ c)).trans ((W4_of_ne m ρ c main_arg2 (by decide)).trans ((keep1_arg2 (W2 m ρ c)).trans ((W2_of_ne m ρ c main_arg2 (by decide)).trans (keep0_arg2 (W0 m ρ c))))))
/-- Argument 10 is as launched at boundary 6, where it is read. -/
theorem arg10_at6 : W6 m ρ c (Proc.devRef .tc main_arg10) = (m ((c : Thread nD τ).loc main_arg10)) :=
  (W6_of_ne m ρ c main_arg10 (by decide)).trans ((keep2_arg10 (W4 m ρ c)).trans ((W4_of_ne m ρ c main_arg10 (by decide)).trans ((keep1_arg10 (W2 m ρ c)).trans ((W2_of_ne m ρ c main_arg10 (by decide)).trans (keep0_arg10 (W0 m ρ c))))))
/-- Argument 9 is as launched at boundary 7, where it is read. -/
theorem arg9_at7 : W7 m ρ c (Proc.devRef .tc main_arg9) = (m ((c : Thread nD τ).loc main_arg9)) :=
  (keep3_arg9 (W6 m ρ c)).trans ((W6_of_ne m ρ c main_arg9 (by decide)).trans ((keep2_arg9 (W4 m ρ c)).trans ((W4_of_ne m ρ c main_arg9 (by decide)).trans ((keep1_arg9 (W2 m ρ c)).trans ((W2_of_ne m ρ c main_arg9 (by decide)).trans (keep0_arg9 (W0 m ρ c)))))))

/-! ## The values, boundary by boundary -/

/-- Layer 1's transform: the first pallas_call's array is the plain product (its zero bias row adds nothing). -/
theorem transform1_at2 : W2 m ρ c (Proc.devRef .tc main_v29) = mm (r := 100000) (n := 64) (c := 64) (m ((c : Thread nD τ).loc main_arg0)) (m ((c : Thread nD τ).loc main_arg3)) := by
  refine (W2_arr m ρ c 3).trans ((region0 (V1 m ρ) c).trans ?_)
  show mm (shift (W1 m ρ c (Proc.devRef .tc main_arg0)) (W1 m ρ c (Proc.devRef .tc main_v28))) (W1 m ρ c (Proc.devRef .tc main_arg3)) = _
  rw [arg0_at1 m ρ c, arg3_at1 m ρ c, show W1 m ρ c (Proc.devRef .tc main_v28) = _ from zero0 (W0 m ρ c)]
  rw [shift_zero _ _ (fun j => zero_row _ _ j)]

/-- Layer 1's messages, aggregated. -/
theorem messages1_at3 : W3 m ρ c (Proc.devRef .tc main_v42) = mp (mm (r := 100000) (n := 64) (c := 64) (m ((c : Thread nD τ).loc main_arg0)) (m ((c : Thread nD τ).loc main_arg3))) (src (m ((c : Thread nD τ).loc main_arg1))) (dst (m ((c : Thread nD τ).loc main_arg1))) (nrm (src (m ((c : Thread nD τ).loc main_arg1))) (dst (m ((c : Thread nD τ).loc main_arg1)))) :=
  (agg1 (W2 m ρ c)).trans (by rw [transform1_at2 m ρ c, src_at2 m ρ c, dst_at2 m ρ c, nrm_at2 m ρ c])

/-- Layer 1's bias as one row. -/
theorem biasrow1_at3 : W3 m ρ c (Proc.devRef .tc main_v43) = shapeCast S1x64 (m ((c : Thread nD τ).loc main_arg4)) row64 :=
  (bias1 (W2 m ρ c)).trans (by rw [arg4_at2 m ρ c])

/-- Layer 2's transform of layer 1's activations. -/
theorem transform2_at4 : W4 m ρ c (Proc.devRef .tc main_v44) = mm (r := 100000) (n := 64) (c := 64) (layer1 (m ((c : Thread nD τ).loc main_arg0)) (m ((c : Thread nD τ).loc main_arg1)) (m ((c : Thread nD τ).loc main_arg3)) (m ((c : Thread nD τ).loc main_arg4))) (m ((c : Thread nD τ).loc main_arg5)) := by
  refine (W4_arr m ρ c 3).trans ((region1 (V3 m ρ) c).trans ?_)
  show mm (relu (shift (W3 m ρ c (Proc.devRef .tc main_v42)) (W3 m ρ c (Proc.devRef .tc main_v43)))) (W3 m ρ c (Proc.devRef .tc main_arg5)) = _
  rw [messages1_at3 m ρ c, biasrow1_at3 m ρ c, arg5_at3 m ρ c]
  rfl

/-- Layer 2's messages, aggregated. -/
theorem messages2_at5 : W5 m ρ c (Proc.devRef .tc main_v57) = mp (mm (r := 100000) (n := 64) (c := 64) (layer1 (m ((c : Thread nD τ).loc main_arg0)) (m ((c : Thread nD τ).loc main_arg1)) (m ((c : Thread nD τ).loc main_arg3)) (m ((c : Thread nD τ).loc main_arg4))) (m ((c : Thread nD τ).loc main_arg5))) (src (m ((c : Thread nD τ).loc main_arg1))) (dst (m ((c : Thread nD τ).loc main_arg1))) (nrm (src (m ((c : Thread nD τ).loc main_arg1))) (dst (m ((c : Thread nD τ).loc main_arg1)))) :=
  (agg2 (W4 m ρ c)).trans (by rw [transform2_at4 m ρ c, src_at4 m ρ c, dst_at4 m ρ c, nrm_at4 m ρ c])

/-- Layer 2's bias as one row. -/
theorem biasrow2_at5 : W5 m ρ c (Proc.devRef .tc main_v58) = shapeCast S1x64 (m ((c : Thread nD τ).loc main_arg6)) row64 :=
  (bias2 (W4 m ρ c)).trans (by rw [arg6_at4 m ρ c])

/-- The embeddings, as the third pallas_call leaves them in its second output. -/
theorem embeddings_at6 : W6 m ρ c (Proc.devRef .tc main_v59_1) = embeddings (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W6_arr m ρ c 4).trans ((region2_embeddings (V5 m ρ) c).trans ?_)
  show relu (shift (W5 m ρ c (Proc.devRef .tc main_v57)) (W5 m ρ c (Proc.devRef .tc main_v58))) = _
  rw [messages2_at5 m ρ c, biasrow2_at5 m ρ c]
  rfl

/-- Layer 3's transform of the embeddings. -/
theorem transform3_at6 : W6 m ρ c (Proc.devRef .tc main_v59_0) = mm (r := 100000) (n := 64) (c := 64) (embeddings (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg7)) := by
  refine (W6_arr m ρ c 3).trans ((region2_product (V5 m ρ) c).trans ?_)
  show mm (relu (shift (W5 m ρ c (Proc.devRef .tc main_v57)) (W5 m ρ c (Proc.devRef .tc main_v58)))) (W5 m ρ c (Proc.devRef .tc main_arg7)) = _
  rw [messages2_at5 m ρ c, biasrow2_at5 m ρ c, arg7_at5 m ρ c]
  rfl

/-- The pooled features: layer 3's messages plus its bias on every row, averaged per graph. -/
theorem pooled_at7 : W7 m ρ c (Proc.devRef .tc main_v87)
    = pool (shift (r := 100000) (c := 64) (mp (mm (r := 100000) (n := 64) (c := 64) (embeddings (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg7))) (src (m ((c : Thread nD τ).loc main_arg1))) (dst (m ((c : Thread nD τ).loc main_arg1))) (nrm (src (m ((c : Thread nD τ).loc main_arg1))) (dst (m ((c : Thread nD τ).loc main_arg1))))) (shapeCast S1x64 (m ((c : Thread nD τ).loc main_arg8)) row64)) (m ((c : Thread nD τ).loc main_arg2)) :=
  (pooled3 (W6 m ρ c)).trans (by
    rw [transform3_at6 m ρ c, src_at6 m ρ c, dst_at6 m ρ c, nrm_at6 m ρ c, arg8_at6 m ρ c, arg2_at6 m ρ c, bias_rows (hs := row64)])

/-- The head's bias as one row. -/
theorem biasrow3_at7 : W7 m ρ c (Proc.devRef .tc main_v88) = shapeCast S1x2 (m ((c : Thread nD τ).loc main_arg10)) row2 :=
  (bias3 (W6 m ρ c)).trans (by rw [arg10_at6 m ρ c])

/-- THE FIRST RESULT: the class scores. -/
theorem scores_at8 : W8 m ρ c (Proc.devRef .tc main_v89) = scores (embeddings (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) := by
  refine (W8_arr m ρ c 3).trans ((region3 (V7 m ρ) c).trans ?_)
  show shift (mm (W7 m ρ c (Proc.devRef .tc main_v87)) (W7 m ρ c (Proc.devRef .tc main_arg9))) (W7 m ρ c (Proc.devRef .tc main_v88)) = _
  rw [pooled_at7 m ρ c, arg9_at7 m ρ c, biasrow3_at7 m ρ c]
  rfl

/-- THE SECOND RESULT: the embeddings, untouched by the last stretch and the last pallas_call. -/
theorem embeddings_at8 : W8 m ρ c (Proc.devRef .tc main_v59_1) = embeddings (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W8_of_ne m ρ c main_v59_1 (by decide)).trans ((keep3_v59_1 (W6 m ρ c)).trans (embeddings_at6 m ρ c))

end Cert.KernelIdeal.FoldValue

end
-- ==== Proof.RVal.lean ====
/-
  What the reference program computes, as the stage compositions of Stage.lean. The generated run states each
  of the reference's two results as one composed term of host operations of the argument arrays. In that term
  every dense layer is spelled with whole-array host operations (`dot_general`, the bias broadcast and added,
  the clamp as a maximum against the zero splat); rewriting those spellings into the matrix functions `mm`,
  `shift`, `relu` leaves exactly the text of `embeddings` and `scores`: the same gathers, scatter-adds and
  broadcasts in the same order, which are never opened.
-/
import proofs.«158824_j60885456388842_1_alg».proof.Proof.Gen.ReferenceIdeal.Run
import proofs.«158824_j60885456388842_1_alg».proof.Proof.Stage
import proofs.«158824_j60885456388842_1_alg».proof.Proof.DenseRef

set_option maxRecDepth 16384

noncomputable section

namespace Cert.RefValue

open Cert.ReferenceIdeal Cert.ReferenceIdeal.Gen Cert.ReferenceIdeal.Value Cert.Stage Cert.Dense Cert.Dense.Ref
open Idealize.ShloMosaic Idealize.ShloMosaic.TcCoe Idealize.SL.Sem

variable (m : (ℓ : Loc nD τ sig) → Buf (Elt Ideal) ℓ) (c : Dev nD)

set_option maxRecDepth 400000 in
/-- The reference's second result is the embeddings of its arguments. -/
theorem embeddings_eq :
    res_main_v62 (F := Ideal) m c = embeddings (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  unfold res_main_v62
  simp only [dot_rows, bias_rows (hs := row64)]
  rw [relu_rows, relu_rows]
  rfl

set_option maxRecDepth 400000 in
/-- The reference's first result is the class scores of its embeddings. -/
theorem scores_eq :
    res_main_v95 (F := Ideal) m c
      = scores (embeddings (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9)) (m ((c.tc : Thread nD τ).loc main_arg10)) := by
  unfold res_main_v95
  simp only [dot_rows, dot_head, bias_rows (hs := row64), bias_head (hs := row2)]
  rw [relu_rows, relu_rows]
  rfl

end Cert.RefValue

end
-- ==== Proof.lean ====
/-
  A three-layer graph convolution network with mean pooling and a linear head, computed two ways, is one function
  of its inputs on the extended reals.
  Both programs first build, from the edge list, the 900000 directed edges (the given ones and a self-loop per
  node), every node's degree and every edge's weight (the product of the inverse square roots of its endpoints'
  degrees). Each layer then multiplies the node features by a 64 x 64 weight matrix, passes the products along the
  edges (gather at the source, scale by the edge's weight, scatter-add at the destination), adds a bias row and,
  for the first two layers, clamps at zero; the second layer's output is the embeddings (the second result); the
  third layer's output is averaged per graph and mapped by the 64 x 2 head with its bias (the first result).
  The reference does all of this with whole-array host operations. The kernel program computes the four dense
  steps in four pallas_calls — three of them tiling the 100000 rows into twenty blocks of 5000, the bias add and
  the clamp of layers 2 and 3 fused in front of the next layer's product, the matrix unit fed bf16 copies and
  accumulating into zero — and everything else with the same host operations as the reference, in the same order.
  At the ideal values a change of float format is the identity and the matrix unit's result is the exact sum of
  products, so each pallas_call's array is the dense layer of the arrays it found (Region0 … Region3), the host
  stretches are the same stage functions on both sides (Host0 … Host3, Stage), and the two programs' results are
  the same compositions (Fold for the kernel, RVal for the reference). The only algebraic law used beyond
  regrouping is x + 0 = x (the first call adds a zero bias row), which holds for every extended real; the
  precondition is not needed.
-/
import proofs.«158824_j60885456388842_1_alg».proof.Defs
import proofs.«158824_j60885456388842_1_alg».proof.Proof.Gen.Kernel
import proofs.«158824_j60885456388842_1_alg».proof.Proof.Gen.Kernel.Frame
import proofs.«158824_j60885456388842_1_alg».proof.Proof.Gen.KernelIdeal
import proofs.«158824_j60885456388842_1_alg».proof.Proof.Gen.KernelIdeal.Frame
import proofs.«158824_j60885456388842_1_alg».proof.Proof.Gen.ReferenceIdeal
import proofs.«158824_j60885456388842_1_alg».proof.Proof.Gen.ReferenceIdeal.Run
import proofs.«158824_j60885456388842_1_alg».proof.Proof.Gen.Pre_finite_inputs
import proofs.«158824_j60885456388842_1_alg».proof.Proof.KRun
import proofs.«158824_j60885456388842_1_alg».proof.Proof.Fold
import proofs.«158824_j60885456388842_1_alg».proof.Proof.RVal
import Idealize.ShloMosaic.Adequacy
import Idealize.ShloMosaic.Init

set_option maxRecDepth 16384

noncomputable section

namespace Cert.Proof

open Idealize.ShloMosaic Idealize.SL.Sem

/-- The word-level kernel program runs and leaves its arguments as launched: the generated frame. -/
theorem frame_kernel : Cert.frame_Kernel := fun m ρ _ => Cert.Kernel.Gen.frame m ρ

/-- The same for the idealized kernel program. -/
theorem frame_kernelIdeal : Cert.frame_KernelIdeal := fun m ρ _ => Cert.KernelIdeal.Gen.frame m ρ

/-- The reference has no kernel: its frame is its generated run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote nothing in this kernel, so there is nothing to preserve. -/
theorem preserves : Cert.preserves_Kernel_KernelIdeal := trivial

/-- Both programs end with the class scores and the embeddings of the same arguments. -/
theorem algebraic : Cert.algebraic_KernelIdeal_ReferenceIdeal := by
  intro m ρ m' ρ' _ hagree
  refine ⟨fun c => Cert.Stage.scores (Cert.Stage.embeddings (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.Stage.embeddings (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ?_) (Cert.KernelIdeal.RunAll.run (F := Ideal) m ρ)
    obtain ⟨hs, he, hargs⟩ := h c
    exact ⟨hs.trans (Cert.KernelIdeal.FoldValue.scores_at8 m ρ c), he.trans (Cert.KernelIdeal.FoldValue.embeddings_at8 m ρ c), hargs⟩
  · refine (θ_run Cert.ReferenceIdeal.defs _ _).mono (fun r h c => ?_) (Cert.ReferenceIdeal.Value.run (F := Ideal) m' ρ')
    obtain ⟨hs, he, hargs⟩ := h c
    obtain ⟨e0, e1, e2, e3, e4, e5, e6, e7, e8, e9, e10⟩ := hagree c
    refine ⟨hs.trans ?_, he.trans ?_, hargs⟩
    · rw [Cert.RefValue.scores_eq m' c, e0, e1, e2, e3, e4, e5, e6, e7, e8, e9, e10]
    · rw [Cert.RefValue.embeddings_eq m' c, e0, e1, e3, e4, e5, e6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
